-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  bcast_S_S2x6400000 : S_.BroadcastsInDim S2x6400000 (![] : Fin 0 → Fin S2x6400000.rank)
  reducesTo_S2x6400000_S_d0_1 : S2x6400000.ReducesTo [0, 1] S_

variable [Facts]

def fn_part1 {F : FTy → Type} [FloatOps F] (main_arg1 : IVec S2x6400000 32) (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_c_8 : IVec S_ 32 := constantI S_ 32 0#32
  let main_v24 : IVec S2x6400000 32 := broadcastInDim S2x6400000 ![] bcast_S_S2x6400000 main_c_8
  let main_v25 : IVec S2x6400000 1 := cmpi .sge main_arg1 main_v24
  let main_c_9 : IVec S_ 32 := constantI S_ 32 200000#32
  let main_v26 : IVec S2x6400000 32 := broadcastInDim S2x6400000 ![] bcast_S_S2x6400000 main_c_9
  let main_v27 : IVec S2x6400000 1 := cmpi .slt main_arg1 main_v26
  let main_v28 : IVec S2x6400000 1 := andi main_v25 main_v27
  let main_c_10 : IVec S_ 1 := constantI S_ 1 1#1
  let main_v29 : IVec S_ 1 := (fun x v => Host.reduce IntOp.andi x v reducesTo_S2x6400000_S_d0_1 h_S_) main_v28 main_c_10
  let main_v30 : IVec S_ 1 := andi main_v23 main_v29
  main_v30

def fn {F : FTy → Type} [FloatOps F] (main_arg0 : FVec F S200000x128 .f32) (main_arg1 : IVec S2x6400000 32) (main_arg2 : FVec F S128x16 .f32) (main_arg3 : FVec F S16 .f32) (main_arg4 : FVec F S16x2 .f32) (main_arg5 : FVec F S2 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg1 main_arg5 main_v13 main_v16
-- ==== Kernel.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S200000x16 : Shape := ⟨2, ![200000, 16]⟩
abbrev S10000x128 : Shape := ⟨2, ![10000, 128]⟩
abbrev S10000x16 : Shape := ⟨2, ![10000, 16]⟩
abbrev S200000x1 : Shape := ⟨2, ![200000, 1]⟩
abbrev S6400000x16 : Shape := ⟨2, ![6400000, 16]⟩
abbrev S1x16 : Shape := ⟨2, ![1, 16]⟩
abbrev S200000x2 : Shape := ⟨2, ![200000, 2]⟩
abbrev S10000x2 : Shape := ⟨2, ![10000, 2]⟩
abbrev S6400000x2 : Shape := ⟨2, ![6400000, 2]⟩
abbrev S1x2 : Shape := ⟨2, ![1, 2]⟩

abbrev nBuf : Space → Nat
  | .hbm => 124
  | .vmem => 10
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S_, .f32⟩
  | .hbm, ⟨11, _⟩ => ⟨S200000, .f32⟩
  | .hbm, ⟨12, _⟩ => ⟨S_, .i32⟩
  | .hbm, ⟨13, _⟩ => ⟨S6400000, .i32⟩
  | .hbm, ⟨14, _⟩ => ⟨S6400000, .i1⟩
  | .hbm, ⟨15, _⟩ => ⟨S_, .i32⟩
  | .hbm, ⟨16, _⟩ => ⟨S6400000, .i32⟩
  | .hbm, ⟨17, _⟩ => ⟨S6400000, .i32⟩
  | .hbm, ⟨18, _⟩ => ⟨S6400000, .i32⟩
  | .hbm, ⟨19, _⟩ => ⟨S6400000x1, .i32⟩
  | .hbm, ⟨20, _⟩ => ⟨S_, .f32⟩
  | .hbm, ⟨21, _⟩ => ⟨S6400000, .f32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S_, .f32⟩
  | .hbm, ⟨27, _⟩ => ⟨S200000, .f32⟩
  | .hbm, ⟨28, _⟩ => ⟨S200000, .i1⟩
  | .hbm, ⟨29, _⟩ => ⟨S200000, .f32⟩
  | .hbm, ⟨30, _⟩ => ⟨S_, .f32⟩
  | .hbm, ⟨31, _⟩ => ⟨S200000, .f32⟩
  | .hbm, ⟨32, _⟩ => ⟨S200000, .f32⟩
  | .hbm, ⟨33, _⟩ => ⟨S200000x16, .f32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S6400000, .f32⟩
  | .hbm, ⟨43, _⟩ => ⟨S_, .i32⟩
  | .hbm, ⟨44, _⟩ => ⟨S6400000, .i32⟩
  | .hbm, ⟨45, _⟩ => ⟨S6400000, .i1⟩
  | .hbm, ⟨46, _⟩ => ⟨S_, .i32⟩
  | .hbm, ⟨47, _⟩ => ⟨S6400000, .i32⟩
  | .hbm, ⟨48, _⟩ => ⟨S6400000, .i32⟩
  | .hbm, ⟨49, _⟩ => ⟨S6400000, .i32⟩
  | .hbm, ⟨50, _⟩ => ⟨S6400000x1, .i32⟩
  | .hbm, ⟨51, _⟩ => ⟨S6400000, .f32⟩
  | .hbm, ⟨52, _⟩ => ⟨S6400000, .f32⟩
  | .hbm, ⟨53, _⟩ => ⟨S200000, .f32⟩
  | .hbm, ⟨54, _⟩ => ⟨S200000x1, .f32⟩
  | .hbm, ⟨55, _⟩ => ⟨S200000x16, .f32⟩
  | .hbm, ⟨56, _⟩ => ⟨S200000x16, .f32⟩
  | .hbm, ⟨57, _⟩ => ⟨S_, .i32⟩
  | .hbm, ⟨58, _⟩ => ⟨S6400000, .i32⟩
  | .hbm, ⟨59, _⟩ => ⟨S6400000, .i1⟩
  | .hbm, ⟨60, _⟩ => ⟨S_, .i32⟩
  | .hbm, ⟨61, _⟩ => ⟨S6400000, .i32⟩
  | .hbm, ⟨62, _⟩ => ⟨S6400000, .i32⟩
  | .hbm, ⟨63, _⟩ => ⟨S6400000, .i32⟩
  | .hbm, ⟨64, _⟩ => ⟨S6400000x1, .i32⟩
  | .hbm, ⟨65, _⟩ => ⟨S6400000x16, .f32⟩
  | .hbm, ⟨66, _⟩ => ⟨S6400000x1, .f32⟩
  | .hbm, ⟨67, _⟩ => ⟨S6400000x16, .f32⟩
  | .hbm, ⟨68, _⟩ => ⟨S6400000x16, .f32⟩
  | .hbm, ⟨69, _⟩ => ⟨S_, .f32⟩
  | .hbm, ⟨70, _⟩ => ⟨S200000x16, .f32⟩
  | .hbm, ⟨71, _⟩ => ⟨S6400000x1, .i32⟩
  | .hbm, ⟨72, _⟩ => ⟨S200000x16, .f32⟩
  | .hbm, ⟨73, _⟩ => ⟨S200000x16, .f32⟩
  | .hbm, ⟨74, _⟩ => ⟨S1x16, .f32⟩
  | .hbm, ⟨75, _⟩ => ⟨S200000x16, .f32⟩
  | .hbm, ⟨76, _⟩ => ⟨S200000x16, .f32⟩
  | .hbm, ⟨77, _⟩ => ⟨S_, .f32⟩
  | .hbm, ⟨78, _⟩ => ⟨S200000x16, .f32⟩
  | .hbm, ⟨79, _⟩ => ⟨S200000x16, .f32⟩
  | .hbm, ⟨80, _⟩ => ⟨S200000x2, .f32⟩
  | .hbm, ⟨81, _⟩ => ⟨S_, .i32⟩
  | .hbm, ⟨82, _⟩ => ⟨S6400000, .i32⟩
  | .hbm, ⟨83, _⟩ => ⟨S6400000, .i1⟩
  | .hbm, ⟨84, _⟩ => ⟨S_, .i32⟩
  | .hbm, ⟨85, _⟩ => ⟨S6400000, .i32⟩
  | .hbm, ⟨86, _⟩ => ⟨S6400000, .i32⟩
  | .hbm, ⟨87, _⟩ => ⟨S6400000, .i32⟩
  | .hbm, ⟨88, _⟩ => ⟨S6400000x1, .i32⟩
  | .hbm, ⟨89, _⟩ => ⟨S6400000, .f32⟩
  | .hbm, ⟨90, _⟩ => ⟨S_, .i32⟩
  | .hbm, ⟨91, _⟩ => ⟨S6400000, .i32⟩
  | .hbm, ⟨92, _⟩ => ⟨S6400000, .i1⟩
  | .hbm, ⟨93, _⟩ => ⟨S_, .i32⟩
  | .hbm, ⟨94, _⟩ => ⟨S6400000, .i32⟩
  | .hbm, ⟨95, _⟩ => ⟨S6400000, .i32⟩
  | .hbm, ⟨96, _⟩ => ⟨S6400000, .i32⟩
  | .hbm, ⟨97, _⟩ => ⟨S6400000x1, .i32⟩
  | .hbm, ⟨98, _⟩ => ⟨S6400000, .f32⟩
  | .hbm, ⟨99, _⟩ => ⟨S6400000, .f32⟩
  | .hbm, ⟨100, _⟩ => ⟨S200000, .f32⟩
  | .hbm, ⟨101, _⟩ => ⟨S200000x1, .f32⟩
  | .hbm, ⟨102, _⟩ => ⟨S200000x2, .f32⟩
  | .hbm, ⟨103, _⟩ => ⟨S200000x2, .f32⟩
  | .hbm, ⟨104, _⟩ => ⟨S_, .i32⟩
  | .hbm, ⟨105, _⟩ => ⟨S6400000, .i32⟩
  | .hbm, ⟨106, _⟩ => ⟨S6400000, .i1⟩
  | .hbm, ⟨107, _⟩ => ⟨S_, .i32⟩
  | .hbm, ⟨108, _⟩ => ⟨S6400000, .i32⟩
  | .hbm, ⟨109, _⟩ => ⟨S6400000, .i32⟩
  | .hbm, ⟨110, _⟩ => ⟨S6400000, .i32⟩
  | .hbm, ⟨111, _⟩ => ⟨S6400000x1, .i32⟩
  | .hbm, ⟨112, _⟩ => ⟨S6400000x2, .f32⟩
  | .hbm, ⟨113, _⟩ => ⟨S6400000x1, .f32⟩
  | .hbm, ⟨114, _⟩ => ⟨S6400000x2, .f32⟩
  | .hbm, ⟨115, _⟩ => ⟨S6400000x2, .f32⟩
  | .hbm, ⟨116, _⟩ => ⟨S_, .f32⟩
  | .hbm, ⟨117, _⟩ => ⟨S200000x2, .f32⟩
  | .hbm, ⟨118, _⟩ => ⟨S6400000x1, .i32⟩
  | .hbm, ⟨119, _⟩ => ⟨S200000x2, .f32⟩
  | .hbm, ⟨120, _⟩ => ⟨S200000x2, .f32⟩
  | .hbm, ⟨121, _⟩ => ⟨S1x2, .f32⟩
  | .hbm, ⟨122, _⟩ => ⟨S200000x2, .f32⟩
  | .hbm, ⟨123, _⟩ => ⟨S200000x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x2, .f32⟩
  | .local _ .vmem, ⟨8, _⟩ => ⟨S10000x2, .f32⟩
  | .local _ .vmem, ⟨9, _⟩ => ⟨S10000x2, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call1_cst : Ref sig .tc := ⟨.hbm, 77, rfl⟩
abbrev main_call1_v0 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_c_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_18 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S200000 : S_.BroadcastsInDim S200000 (![] : Fin 0 → Fin S200000.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  shapeCasts_S10000x16_S10000x16 : S10000x16.ShapeCasts S10000x16
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S200000x1_S200000x2_0_1 : S200000x1.BroadcastsInDim S200000x2 (![0, 1] : Fin 2 → Fin S200000x2.rank)
  bcast_S6400000x1_S6400000x2_0_1 : S6400000x1.BroadcastsInDim S6400000x2 (![0, 1] : Fin 2 → Fin S6400000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S200000_S6400000x1_S6400000_n_0_0_1_wf : ScatterDims.WF S200000 S6400000x1 S6400000 [] [0] [0] 1
  dot_S10000x128_S128x16_S10000x16_1_0_0_1_n_n_wf : DotDims.WF S10000x128 S128x16 S10000x16 [1] [0] [0] [1] [] []
  gather_S200000_S6400000x1_S6400000_n_0_n_n_0_1_1_wf : GatherDims.WF S200000 S6400000x1 S6400000 [] [0] [] [0] [] 1 ![1]
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S10000x16_S16x2_S10000x2_1_0_0_1_n_n_wf : DotDims.WF S10000x16 S16x2 S10000x2 [1] [0] [0] [1] [] []
  gather_S200000x2_S6400000x1_S6400000x2_1_0_n_n_0_1_12_wf : GatherDims.WF S200000x2 S6400000x1 S6400000x2 [1] [0] [] [0] [] 1 ![1, 2]
  scatter_S200000x2_S6400000x1_S6400000x2_1_0_0_1_wf : ScatterDims.WF S200000x2 S6400000x1 S6400000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S200000x16.size a
  hwx1_0 : ∀ i : grid1.Coords, EltTy.bits .f32 = 32 ∨ (Rect.block (s := S200000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2.size a ≤ S16x2.size a
  hwx1_1 : ∀ i : grid1.Coords, EltTy.bits .f32 = 32 ∨ (Rect.block (s := S16x2) S16x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x2.size a ≤ S200000x2.size a
  hwx1_2 : ∀ i : grid1.Coords, EltTy.bits .f32 = 32 ∨ (Rect.block (s := S200000x2) S10000x2.size (cc1_transform_2 i) (hinb1_2 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S200000x2_S6400000x1_S6400000x2_1_0_n_n_0_1_12 : GatherDims S200000x2 S6400000x1 S6400000x2 where
  offsetDims := [1]
  collapsedSliceDims := [0]
  operandBatchingDims := []
  startIndicesBatchingDims := []
  startIndexMap := [0]
  indexVectorDim := 1
  sliceSizes := ![1, 2]
  wf := gather_S200000x2_S6400000x1_S6400000x2_1_0_n_n_0_1_12_wf
def scatter_S200000x2_S6400000x1_S6400000x2_1_0_0_1 : ScatterDims S200000x2 S6400000x1 S6400000x2 where
  updateWindowDims := [1]
  insertedWindowDims := [0]
  scatterDimsToOperandDims := [0]
  indexVectorDim := 1
  wf := scatter_S200000x2_S6400000x1_S6400000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S10000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S200000x16 : Shape := ⟨2, ![200000, 16]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S6600000x16 : Shape := ⟨2, ![6600000, 16]⟩
abbrev S1x16 : Shape := ⟨2, ![1, 16]⟩
abbrev S200000x2 : Shape := ⟨2, ![200000, 2]⟩
abbrev S6600000x2 : Shape := ⟨2, ![6600000, 2]⟩
abbrev S1x2 : Shape := ⟨2, ![1, 2]⟩

abbrev nBuf : Space → Nat
  | .hbm => 123
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000x16, .f32⟩
  | .hbm, ⟨11, _⟩ => ⟨S200000, .i32⟩
  | .hbm, ⟨12, _⟩ => ⟨S6600000, .i32⟩
  | .hbm, ⟨13, _⟩ => ⟨S6600000, .i32⟩
  | .hbm, ⟨14, _⟩ => ⟨S_, .f32⟩
  | .hbm, ⟨15, _⟩ => ⟨S6600000, .f32⟩
  | .hbm, ⟨16, _⟩ => ⟨S_, .f32⟩
  | .hbm, ⟨17, _⟩ => ⟨S200000, .f32⟩
  | .hbm, ⟨18, _⟩ => ⟨S6600000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S_, .i32⟩
  | .hbm, ⟨47, _⟩ => ⟨S6600000, .i32⟩
  | .hbm, ⟨48, _⟩ => ⟨S6600000, .i1⟩
  | .hbm, ⟨49, _⟩ => ⟨S_, .i32⟩
  | .hbm, ⟨50, _⟩ => ⟨S6600000, .i32⟩
  | .hbm, ⟨51, _⟩ => ⟨S6600000, .i32⟩
  | .hbm, ⟨52, _⟩ => ⟨S6600000, .i32⟩
  | .hbm, ⟨53, _⟩ => ⟨S6600000x1, .i32⟩
  | .hbm, ⟨54, _⟩ => ⟨S6600000x16, .f32⟩
  | .hbm, ⟨55, _⟩ => ⟨S6600000x1, .f32⟩
  | .hbm, ⟨56, _⟩ => ⟨S6600000x16, .f32⟩
  | .hbm, ⟨57, _⟩ => ⟨S6600000x16, .f32⟩
  | .hbm, ⟨58, _⟩ => ⟨S_, .f32⟩
  | .hbm, ⟨59, _⟩ => ⟨S200000x16, .f32⟩
  | .hbm, ⟨60, _⟩ => ⟨S6600000x1, .i32⟩
  | .hbm, ⟨61, _⟩ => ⟨S200000x16, .f32⟩
  | .hbm, ⟨62, _⟩ => ⟨S1x16, .f32⟩
  | .hbm, ⟨63, _⟩ => ⟨S200000x16, .f32⟩
  | .hbm, ⟨64, _⟩ => ⟨S200000x16, .f32⟩
  | .hbm, ⟨65, _⟩ => ⟨S_, .f32⟩
  | .hbm, ⟨66, _⟩ => ⟨S200000x16, .f32⟩
  | .hbm, ⟨67, _⟩ => ⟨S200000x16, .f32⟩
  | .hbm, ⟨68, _⟩ => ⟨S200000x2, .f32⟩
  | .hbm, ⟨69, _⟩ => ⟨S200000, .i32⟩
  | .hbm, ⟨70, _⟩ => ⟨S6600000, .i32⟩
  | .hbm, ⟨71, _⟩ => ⟨S6600000, .i32⟩
  | .hbm, ⟨72, _⟩ => ⟨S_, .f32⟩
  | .hbm, ⟨73, _⟩ => ⟨S6600000, .f32⟩
  | .hbm, ⟨74, _⟩ => ⟨S_, .f32⟩
  | .hbm, ⟨75, _⟩ => ⟨S200000, .f32⟩
  | .hbm, ⟨76, _⟩ => ⟨S6600000x1, .i32⟩
  | .hbm, ⟨77, _⟩ => ⟨S200000, .f32⟩
  | .hbm, ⟨78, _⟩ => ⟨S_, .f32⟩
  | .hbm, ⟨79, _⟩ => ⟨S200000, .f32⟩
  | .hbm, ⟨80, _⟩ => ⟨S200000, .i1⟩
  | .hbm, ⟨81, _⟩ => ⟨S200000, .f32⟩
  | .hbm, ⟨82, _⟩ => ⟨S_, .f32⟩
  | .hbm, ⟨83, _⟩ => ⟨S200000, .f32⟩
  | .hbm, ⟨84, _⟩ => ⟨S200000, .f32⟩
  | .hbm, ⟨85, _⟩ => ⟨S_, .i32⟩
  | .hbm, ⟨86, _⟩ => ⟨S6600000, .i32⟩
  | .hbm, ⟨87, _⟩ => ⟨S6600000, .i1⟩
  | .hbm, ⟨88, _⟩ => ⟨S_, .i32⟩
  | .hbm, ⟨89, _⟩ => ⟨S6600000, .i32⟩
  | .hbm, ⟨90, _⟩ => ⟨S6600000, .i32⟩
  | .hbm, ⟨91, _⟩ => ⟨S6600000, .i32⟩
  | .hbm, ⟨92, _⟩ => ⟨S6600000x1, .i32⟩
  | .hbm, ⟨93, _⟩ => ⟨S6600000, .f32⟩
  | .hbm, ⟨94, _⟩ => ⟨S_, .i32⟩
  | .hbm, ⟨95, _⟩ => ⟨S6600000, .i32⟩
  | .hbm, ⟨96, _⟩ => ⟨S6600000, .i1⟩
  | .hbm, ⟨97, _⟩ => ⟨S_, .i32⟩
  | .hbm, ⟨98, _⟩ => ⟨S6600000, .i32⟩
  | .hbm, ⟨99, _⟩ => ⟨S6600000, .i32⟩
  | .hbm, ⟨100, _⟩ => ⟨S6600000, .i32⟩
  | .hbm, ⟨101, _⟩ => ⟨S6600000x1, .i32⟩
  | .hbm, ⟨102, _⟩ => ⟨S6600000, .f32⟩
  | .hbm, ⟨103, _⟩ => ⟨S6600000, .f32⟩
  | .hbm, ⟨104, _⟩ => ⟨S_, .i32⟩
  | .hbm, ⟨105, _⟩ => ⟨S6600000, .i32⟩
  | .hbm, ⟨106, _⟩ => ⟨S6600000, .i1⟩
  | .hbm, ⟨107, _⟩ => ⟨S_, .i32⟩
  | .hbm, ⟨108, _⟩ => ⟨S6600000, .i32⟩
  | .hbm, ⟨109, _⟩ => ⟨S6600000, .i32⟩
  | .hbm, ⟨110, _⟩ => ⟨S6600000, .i32⟩
  | .hbm, ⟨111, _⟩ => ⟨S6600000x1, .i32⟩
  | .hbm, ⟨112, _⟩ => ⟨S6600000x2, .f32⟩
  | .hbm, ⟨113, _⟩ => ⟨S6600000x1, .f32⟩
  | .hbm, ⟨114, _⟩ => ⟨S6600000x2, .f32⟩
  | .hbm, ⟨115, _⟩ => ⟨S6600000x2, .f32⟩
  | .hbm, ⟨116, _⟩ => ⟨S_, .f32⟩
  | .hbm, ⟨117, _⟩ => ⟨S200000x2, .f32⟩
  | .hbm, ⟨118, _⟩ => ⟨S6600000x1, .i32⟩
  | .hbm, ⟨119, _⟩ => ⟨S200000x2, .f32⟩
  | .hbm, ⟨120, _⟩ => ⟨S1x2, .f32⟩
  | .hbm, ⟨121, _⟩ => ⟨S200000x2, .f32⟩
  | .hbm, ⟨122, _⟩ => ⟨S200000x2, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_call2_v0 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x2_0_1 : S6600000x1.BroadcastsInDim S6600000x2 (![0, 1] : Fin 2 → Fin S6600000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  dot_S200000x128_S128x16_S200000x16_1_0_0_1_n_n_wf : DotDims.WF S200000x128 S128x16 S200000x16 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x2_S200000x2_1_0_0_1_n_n_wf : DotDims.WF S200000x16 S16x2 S200000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1

variable [Facts₀]

def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf

class Facts : Prop extends Facts₀ where

variable [Facts]
-- ==== Proof.KernelRun.lean ====
/-
  The idealized kernel's run with its result named. The generated frame certificate launches @main as seven segments
  (a host stretch, a host stretch, the first matrix product's region, two host stretches, the second product's region, the
  closing host stretch) and ends with EVERY unscoped buffer of core `c` at the last boundary's contents `W7 m ρ c`; its
  statement keeps only the six argument arrays. Here the same launch is read once more with the result buffer kept as
  well: after every weakly fair execution the result array is `W7 m ρ c` at the result's reference — the closing
  stretch's operations applied to what the second region leaves — and the arguments are as launched.
-/
import proofs.«154932_j37426345017679_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the result array holds when @main returns: the last boundary's contents at the result's reference. -/
abbrev result (c : Dev nD) : Buf (Elt F) ((c.tc : Thread nD τ).loc main_v93) := W7 m ρ c (Proc.devRef .tc main_v93)

set_option backward.isDefEq.respectTransparency.types false in
/-- Every weakly fair execution of @main terminates, nothing faulting, with the result array at `result m ρ c` and the
    six argument arrays as launched. -/
theorem run : θ_run defs (onTc (τ := τ) (main (F := F))) ⟨m, fun _ => 0, ρ⟩ (fun r => ∀ c : Dev nD,
      r.2.mem ((c.tc : Thread nD τ).loc main_v93) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v93 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.LibScatterRows.lean ====
/-
  A float scatter-add of ROWS, read at one element, on the extended reals.

  The operand is a table of `N` rows of `C` entries; the scatter indices are a column of `E` integers, one row number per
  update; the updates are `E` rows of `C` entries. Update row `e` is added into the operand's row whose number is the
  `e`-th index read as a SIGNED integer — not clamped, not wrapped: a row number that is negative or at least `N` names no
  row and that update is dropped. So entry `(r, f)` of the result is the operand's entry plus the sum, over the updates
  `e` whose index is exactly `r`, of update entry `(e, f)`. Addition on the extended reals is commutative and associative,
  so no order of the colliding updates matters and nothing here asks the summands to be finite.

  Stated for the dimension numbers such a scatter prints with (the updates' axis 1 is the window axis, the operand's axis 0
  is the inserted one and the one the index names, the index vector lies along axis 1 of the index column), at any extents.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

variable {N E C w : Nat}

/-- The dimension numbers of a row scatter, as a literal record over any proof of their conditions. -/
abbrev rowsDims (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

variable (wf : ScatterDims.WF ⟨2, ![N, C]⟩ ⟨2, ![E, 1]⟩ ⟨2, ![E, C]⟩ [1] [0] [0] 1)

/-- Update `(e, f)` reads its row number at entry `(e, 0)` of the index column. -/
theorem siIdx_rows (j : (⟨2, ![E, C]⟩ : Shape).Idx) (c : Fin (rowsDims wf).scatterDimsToOperandDims.length) :
    (rowsDims wf).siIdx j c = ix2 (j 0) (0 : Fin 1) := by
  funext b
  refine Fin.ext ?_
  match b with
  | ⟨0, _⟩ => rfl
  | ⟨1, _⟩ =>
    have : c.val = 0 := by have := c.isLt; simpa using this
    show c.val = 0
    exact this

/-- On the row axis the window starts at the signed row number. -/
theorem start_rows0 (j : (⟨2, ![E, C]⟩ : Shape).Idx) (idx : IVec ⟨2, ![E, 1]⟩ w) :
    (rowsDims wf).start j idx 0 = (idx (ix2 (j 0) (0 : Fin 1))).toInt := by
  unfold ScatterDims.start
  simp only [List.mem_singleton, dite_true]
  rw [siIdx_rows]
  rfl

/-- An axis is kept by a list of dropped axes exactly when it is not in the list. -/
theorem mem_kept {s : Shape} (axes : List (Fin s.rank)) (a : Fin s.rank) : a ∈ s.kept axes ↔ a ∉ axes := by
  simp [Shape.kept, List.mem_filter, List.mem_finRange]

/-- On the entry axis the window starts at 0: the index names no such axis. -/
theorem start_rows1 (j : (⟨2, ![E, C]⟩ : Shape).Idx) (idx : IVec ⟨2, ![E, 1]⟩ w) :
    (rowsDims wf).start j idx 1 = 0 := by
  unfold ScatterDims.start
  rw [dif_neg (by show (1 : Fin 2) ∉ [(0 : Fin 2)]; simp)]

/-- The row axis is inserted: the window has no extent along it. -/
theorem window_rows0 (j : (⟨2, ![E, C]⟩ : Shape).Idx) : (rowsDims wf).window j 0 = 0 := by
  unfold ScatterDims.window
  rw [dif_neg (by rw [ScatterDims.sKept, mem_kept]; show ¬ (0 : Fin 2) ∉ [(0 : Fin 2)]; simp)]

/-- Along the entry axis the window coordinate is the update's own entry number. -/
theorem window_rows1 (j : (⟨2, ![E, C]⟩ : Shape).Idx) : (rowsDims wf).window j 1 = (j 1).val := by
  unfold ScatterDims.window
  rw [dif_pos (by rw [ScatterDims.sKept, mem_kept]; show (1 : Fin 2) ∉ [(0 : Fin 2)]; simp)]
  rfl

/-- WHERE AN UPDATE LANDS: update `(e, f)` lands on entry `i` of the table exactly when its row number, read signed, is
    `i`'s row and `f` is `i`'s entry number. (A row number outside `[0, N)` lands nowhere.) -/
theorem resultIdx?_rows (j : (⟨2, ![E, C]⟩ : Shape).Idx) (idx : IVec ⟨2, ![E, 1]⟩ w) (i : (⟨2, ![N, C]⟩ : Shape).Idx) :
    (rowsDims wf).resultIdx? j idx = some i
      ↔ (idx (ix2 (j 0) (0 : Fin 1))).toInt = ((i 0).val : ℤ) ∧ (j 1).val = (i 1).val := by
  have e0 : (rowsDims wf).start j idx 0 + ((rowsDims wf).window j 0 : ℤ) = (idx (ix2 (j 0) (0 : Fin 1))).toInt := by
    rw [start_rows0, window_rows0]; simp
  have e1 : (rowsDims wf).start j idx 1 + ((rowsDims wf).window j 1 : ℤ) = ((j 1).val : ℤ) := by
    rw [start_rows1, window_rows1]; simp
  have hi0 : (i 0).val < N := (i 0).isLt
  have hj1 : (j 1).val < C := (j 1).isLt
  unfold ScatterDims.resultIdx?
  constructor
  · intro h
    split at h
    · rename_i hc
      have h' := Option.some.inj h
      have h0 := congrArg Fin.val (congrFun h' 0)
      have h1 := congrArg Fin.val (congrFun h' 1)
      have c0 := hc 0
      simp only at h0 h1
      rw [e0] at h0 c0
      rw [e1] at h1
      constructor
      · omega
      · omega
    · exact absurd h (by simp)
  · rintro ⟨hz, hf⟩
    have hc : ∀ a, 0 ≤ (rowsDims wf).start j idx a + ((rowsDims wf).window j a : ℤ)
        ∧ (rowsDims wf).start j idx a + ((rowsDims wf).window j a : ℤ) < ((⟨2, ![N, C]⟩ : Shape).size a : ℤ) := by
      intro a
      match a with
      | ⟨0, _⟩ =>
        show 0 ≤ (rowsDims wf).start j idx 0 + ((rowsDims wf).window j 0 : ℤ)
          ∧ (rowsDims wf).start j idx 0 + ((rowsDims wf).window j 0 : ℤ) < (N : ℤ)
        rw [e0, hz]; omega
      | ⟨1, _⟩ =>
        show 0 ≤ (rowsDims wf).start j idx 1 + ((rowsDims wf).window j 1 : ℤ)
          ∧ (rowsDims wf).start j idx 1 + ((rowsDims wf).window j 1 : ℤ) < (C : ℤ)
        rw [e1]; omega
    rw [dif_pos hc]
    refine congrArg some (funext fun a => Fin.ext ?_)
    match a with
    | ⟨0, _⟩ =>
      show ((rowsDims wf).start j idx 0 + ((rowsDims wf).window j 0 : ℤ)).toNat = (i 0).val
      rw [e0, hz]; simp
    | ⟨1, _⟩ =>
      show ((rowsDims wf).start j idx 1 + ((rowsDims wf).window j 1 : ℤ)).toNat = (i 1).val
      rw [e1]; simp [hf]

/-- THE ROW SCATTER-ADD AT ONE ENTRY, on the extended reals: the table's entry plus the updates' entries `(e, f)` over the
    updates `e` whose signed row number is `r`. A finite sum in a commutative monoid: no order, no finiteness. -/
theorem scatterAdd_rows_apply (x : FVec Ideal ⟨2, ![N, C]⟩ .f32) (idx : IVec ⟨2, ![E, 1]⟩ w)
    (upd : FVec Ideal ⟨2, ![E, C]⟩ .f32) (r : Fin N) (f : Fin C) :
    Host.scatterAdd (F := Ideal) (rowsDims wf) x idx upd (ix2 r f)
      = x (ix2 r f) + ∑ e : Fin E, if (idx (ix2 e (0 : Fin 1))).toInt = (r.val : ℤ) then upd (ix2 e f) else 0 := by
  show x (ix2 r f) + ∑ j ∈ Finset.univ.filter (fun j => (rowsDims wf).resultIdx? j idx = some (ix2 r f)), upd j = _
  refine congrArg (x (ix2 r f) + ·) ?_
  rw [Finset.sum_filter, sum_idx2]
  refine Finset.sum_congr rfl fun e _ => ?_
  by_cases hz : (idx (ix2 e (0 : Fin 1))).toInt = (r.val : ℤ)
  · rw [if_pos hz]
    rw [Finset.sum_eq_single f]
    · rw [if_pos ((resultIdx?_rows wf (ix2 e f) idx (ix2 r f)).mpr ⟨hz, rfl⟩)]
    · intro b _ hb
      rw [if_neg]
      intro h
      exact hb (Fin.ext ((resultIdx?_rows wf (ix2 e b) idx (ix2 r f)).mp h).2)
    · intro h; exact absurd (Finset.mem_univ f) h
  · rw [if_neg hz]
    refine Finset.sum_eq_zero fun b _ => ?_
    rw [if_neg]
    intro h
    exact hz ((resultIdx?_rows wf (ix2 e b) idx (ix2 r f)).mp h).1

/-! ## The same for a VECTOR operand: a count or a sum per row number

The operand is a vector of `N` entries, the updates a vector of `E` entries, update `e` added into the entry whose number is
the `e`-th index read signed. -/

/-- A one-axis index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (g : (⟨1, ![n]⟩ : Shape).Idx → M) :
    ∑ i, g i = ∑ a : Fin n, g (ix1 a) := by
  rw [← Equiv.sum_comp (idxEquiv1 (n := n)).symm g]
  rfl

/-- The dimension numbers of a scatter into a vector, as a literal record over any proof of their conditions. -/
abbrev vecDims (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

variable (wfv : ScatterDims.WF ⟨1, ![N]⟩ ⟨2, ![E, 1]⟩ ⟨1, ![E]⟩ [] [0] [0] 1)

theorem siIdx_vec (j : (⟨1, ![E]⟩ : Shape).Idx) (c : Fin (vecDims wfv).scatterDimsToOperandDims.length) :
    (vecDims wfv).siIdx j c = ix2 (j 0) (0 : Fin 1) := by
  funext b
  refine Fin.ext ?_
  match b with
  | ⟨0, _⟩ => rfl
  | ⟨1, _⟩ =>
    have : c.val = 0 := by have := c.isLt; simpa using this
    show c.val = 0
    exact this

theorem start_vec (j : (⟨1, ![E]⟩ : Shape).Idx) (idx : IVec ⟨2, ![E, 1]⟩ w) :
    (vecDims wfv).start j idx 0 = (idx (ix2 (j 0) (0 : Fin 1))).toInt := by
  unfold ScatterDims.start
  simp only [List.mem_singleton, dite_true]
  rw [siIdx_vec]
  rfl

theorem window_vec (j : (⟨1, ![E]⟩ : Shape).Idx) : (vecDims wfv).window j 0 = 0 := by
  unfold ScatterDims.window
  rw [dif_neg (by rw [ScatterDims.sKept, mem_kept]; show ¬ (0 : Fin 1) ∉ [(0 : Fin 1)]; simp)]

/-- Update `e` lands on entry `i` exactly when its signed index is `i`'s number. -/
theorem resultIdx?_vec (j : (⟨1, ![E]⟩ : Shape).Idx) (idx : IVec ⟨2, ![E, 1]⟩ w) (i : (⟨1, ![N]⟩ : Shape).Idx) :
    (vecDims wfv).resultIdx? j idx = some i ↔ (idx (ix2 (j 0) (0 : Fin 1))).toInt = ((i 0).val : ℤ) := by
  have e0 : (vecDims wfv).start j idx 0 + ((vecDims wfv).window j 0 : ℤ) = (idx (ix2 (j 0) (0 : Fin 1))).toInt := by
    rw [start_vec, window_vec]; simp
  have hi0 : (i 0).val < N := (i 0).isLt
  unfold ScatterDims.resultIdx?
  constructor
  · intro h
    split at h
    · rename_i hc
      have h' := Option.some.inj h
      have h0 := congrArg Fin.val (congrFun h' 0)
      have c0 := hc 0
      simp only at h0
      rw [e0] at h0 c0
      omega
    · exact absurd h (by simp)
  · intro hz
    have hc : ∀ a, 0 ≤ (vecDims wfv).start j idx a + ((vecDims wfv).window j a : ℤ)
        ∧ (vecDims wfv).start j idx a + ((vecDims wfv).window j a : ℤ) < ((⟨1, ![N]⟩ : Shape).size a : ℤ) := by
      intro a
      match a with
      | ⟨0, _⟩ =>
        show 0 ≤ (vecDims wfv).start j idx 0 + ((vecDims wfv).window j 0 : ℤ)
          ∧ (vecDims wfv).start j idx 0 + ((vecDims wfv).window j 0 : ℤ) < (N : ℤ)
        rw [e0, hz]; omega
    rw [dif_pos hc]
    refine congrArg some (funext fun a => Fin.ext ?_)
    match a with
    | ⟨0, _⟩ =>
      show ((vecDims wfv).start j idx 0 + ((vecDims wfv).window j 0 : ℤ)).toNat = (i 0).val
      rw [e0, hz]; simp

/-- THE VECTOR SCATTER-ADD AT ONE ENTRY, on the extended reals: the operand's entry plus the updates whose signed index is
    that entry's number. -/
theorem scatterAdd_vec_apply (x : FVec Ideal ⟨1, ![N]⟩ .f32) (idx : IVec ⟨2, ![E, 1]⟩ w)
    (upd : FVec Ideal ⟨1, ![E]⟩ .f32) (r : Fin N) :
    Host.scatterAdd (F := Ideal) (vecDims wfv) x idx upd (ix1 r)
      = x (ix1 r) + ∑ e : Fin E, if (idx (ix2 e (0 : Fin 1))).toInt = (r.val : ℤ) then upd (ix1 e) else 0 := by
  show x (ix1 r) + ∑ j ∈ Finset.univ.filter (fun j => (vecDims wfv).resultIdx? j idx = some (ix1 r)), upd j = _
  refine congrArg (x (ix1 r) + ·) ?_
  rw [Finset.sum_filter, sum_idx1]
  refine Finset.sum_congr rfl fun e _ => ?_
  by_cases hz : (idx (ix2 e (0 : Fin 1))).toInt = (r.val : ℤ)
  · rw [if_pos hz, if_pos ((resultIdx?_vec wfv (ix1 e) idx (ix1 r)).mpr hz)]
  · rw [if_neg hz, if_neg (fun h => hz ((resultIdx?_vec wfv (ix1 e) idx (ix1 r)).mp h))]

end Idealize.ShloMosaic.ScatterRows

end
-- ==== Proof.LibGatherAt.lean ====
/-
  Two gathers read at one element: picking entries of a vector, and whole rows of a table, by a column of row numbers.

  `x[idx]` for a vector `x` of `N` entries and `E` row numbers gives `E` entries; for a table of `N` rows of `C` entries
  it gives `E` rows. Result element `e` (or `(e, f)`) is the operand at the row whose number is the `e`-th index read as a
  SIGNED integer and clamped into `[0, N - 1]` — a gather clamps where a scatter drops. In particular the element read is a
  function of that one index WORD: two gathers of one operand whose index words agree at `e` read the same element.

  Stated for the dimension numbers such gathers print with (the operand's axis 0 collapsed and named by the index, the index
  vector along axis 1 of the index column; for rows, the result's axis 1 the offset axis over the whole row), at any extents.
-/
import Idealize.ShloMosaic.PureOps.Ideal
import Idealize.ShloMosaic.Lib.ValueIdx

noncomputable section

namespace Idealize.ShloMosaic.GatherAt

open Idealize.ShloMosaic Idealize.ShloMosaic.ValueIdx

variable {α : Type} {N E C w : Nat}

/-- The row a signed index word names, clamped into the table. -/
def clampRow (N : Nat) (hN : 0 < N) {w : Nat} (z : BitVec w) : Fin N := ⟨min z.toInt.toNat (N - 1), by omega⟩

/-! ## Entries of a vector -/

abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER AT `e`: the operand at the clamped row the `e`-th index names. -/
theorem gather_vec_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims wf) x idx (ix1 e) = x (ix1 (clampRow N hN (idx (ix2 e (0 : Fin 1))))) := by
  unfold Host.gather
  congr 1
  funext a
  obtain rfl : a = 0 := Subsingleton.elim _ _
  refine Fin.ext ?_
  show (vecDims wf).start (ix1 e) idx 0 + (vecDims wf).batchCoord (ix1 e) 0 + (vecDims wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims wf).startIndexMap from List.mem_singleton.mpr rfl)]
  have hsi : (vecDims wf).siIdx (ix1 e) ⟨List.idxOf (0 : Fin 1) (vecDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows of a table -/

abbrev rowsDims (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, f)`: entry `f` of the clamped row the `e`-th index names. -/
theorem gather_rows_apply (hN : 0 < N) (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims wf) x idx (ix2 e f) = x (ix2 (clampRow N hN (idx (ix2 e (0 : Fin 1)))) f) := by
  unfold Host.gather
  congr 1
  funext a
  refine Fin.ext ?_
  match a with
  | ⟨0, _⟩ =>
    show (rowsDims wf).start (ix2 e f) idx 0 + (rowsDims wf).batchCoord (ix2 e f) 0 + (rowsDims wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims wf).startIndexMap from List.mem_singleton.mpr rfl)]
    have hsi : (rowsDims wf).siIdx (ix2 e f) ⟨List.idxOf (0 : Fin 2) (rowsDims wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims wf).start (ix2 e f) idx 1 + (rowsDims wf).batchCoord (ix2 e f) 1 + (rowsDims wf).offCoord (ix2 e f) 1 = f.val
    rw [GatherDims.batchCoord_eq_zero _ _ _ List.not_mem_nil]
    unfold GatherDims.start
    rw [dif_neg (by show (1 : Fin 2) ∉ [(0 : Fin 2)]; simp)]
    unfold GatherDims.offCoord
    rw [dif_pos ((GatherDims.mem_sKept _ _).mpr ⟨by show (1 : Fin 2) ∉ [(0 : Fin 2)]; simp, List.not_mem_nil⟩)]
    simp only [Nat.zero_add, Nat.add_zero]
    rfl

end Idealize.ShloMosaic.GatherAt

end
-- ==== Proof.LibIndexWords.lean ====
/-
  Row numbers as 32-bit words, and a sum over a list of updates followed by one update per row.

  A row number arrives as a 32-bit word read SIGNED. jnp's indexing first adds the extent to a negative word (so that `-1`
  means the last row); on a word that is not negative that step does nothing. The row numbers `0, 1, …` counted out as words
  are not negative and read back as themselves as long as they stay below `2^31`. And a comparison `z ≥ 0` that came out
  true says just that the word, read signed, is not negative.

  Last, a sum over `E₁ + E₂` terms is the sum of the first `E₁` and of the last `E₂`; when of the last `E₂` terms only the
  one numbered `r` is not zero, it is the first sum plus that term.
-/
import Idealize.ShloMosaic.PureOps.Ideal
import Idealize.ShloMosaic.Lib.ValueIdx

noncomputable section

open scoped BigOperators

namespace Idealize.ShloMosaic.IndexWords

open Idealize.ShloMosaic Idealize.ShloMosaic.ValueIdx

/-- jnp's normalisation of a row number against an extent `n`: a negative word has `n` added. -/
def wrap (n z : BitVec 32) : BitVec 32 := Scalar.select (IntOp.cmpi .slt z 0#32) (IntOp.addi z n) z

/-- A word that is not negative is left as it is. -/
theorem wrap_of_nonneg (n z : BitVec 32) (hz : 0 ≤ z.toInt) : wrap n z = z := by
  unfold wrap
  have : IntOp.cmpi .slt z 0#32 = 0#1 := by
    unfold IntOp.cmpi
    have : z.slt 0#32 = false := by
      rw [BitVec.slt_eq_decide]
      simp only [BitVec.toInt_zero, decide_eq_false_iff_not, not_lt]
      exact hz
    rw [this]; rfl
  rw [this]
  exact select_zero _ _

/-- The comparison `z ≥ 0` came out true: the word read signed is not negative. -/
theorem nonneg_of_sge (z : BitVec 32) (h : IntOp.cmpi .sge z 0#32 = 1#1) : 0 ≤ z.toInt := by
  have h1 : BitVec.ofBool ((0#32 : BitVec 32).sle z) = 1#1 := h
  have h' : (0#32 : BitVec 32).sle z = true := by
    cases hb : (0#32 : BitVec 32).sle z
    · rw [hb] at h1; exact absurd h1 (by decide)
    · rfl
  rw [BitVec.sle_eq_decide] at h'
  simpa using h'

/-- A row number below `2^31` counted out as a word reads back, signed, as itself. -/
theorem toInt_ofNat_small (k : Nat) (hk : k < 2 ^ 31) : (BitVec.ofNat 32 k).toInt = (k : ℤ) := by
  have hn : (BitVec.ofNat 32 k).toNat = k := by
    rw [BitVec.toNat_ofNat]; exact Nat.mod_eq_of_lt (by omega)
  unfold BitVec.toInt
  rw [hn, if_pos (by omega)]

/-- A sum over `E₁ + E₂` terms: the first `E₁`, then the last `E₂`. -/
theorem sum_head_tail {M : Type*} [AddCommMonoid M] {E₁ E₂ Et : Nat} (h : Et = E₁ + E₂) (g : Fin Et → M) :
    ∑ e : Fin Et, g e
      = ∑ e : Fin E₁, g ⟨e.val, by have := e.isLt; omega⟩ + ∑ k : Fin E₂, g ⟨E₁ + k.val, by have := k.isLt; omega⟩ := by
  subst h
  rw [Fin.sum_univ_add]
  rfl

/-- … and when only the `r`-th of the last `E₂` terms is not zero, the first sum plus that one term. -/
theorem sum_head_tail_single {M : Type*} [AddCommMonoid M] {E₁ E₂ Et : Nat} (h : Et = E₁ + E₂) (g : Fin Et → M) (r : Fin E₂)
    (hg : ∀ k : Fin E₂, k ≠ r → g ⟨E₁ + k.val, by have := k.isLt; omega⟩ = 0) :
    ∑ e : Fin Et, g e = ∑ e : Fin E₁, g ⟨e.val, by have := e.isLt; omega⟩ + g ⟨E₁ + r.val, by have := r.isLt; omega⟩ := by
  rw [sum_head_tail h g]
  refine congrArg (_ + ·) ?_
  exact Finset.sum_eq_single r (fun k _ hk => hg k hk) (fun hr => absurd (Finset.mem_univ r) hr)

/-- UPDATES FOLLOWED BY ONE UPDATE PER ROW. A list of `E₁` updates is followed by `N` more, the `k`-th of them aimed at row
    `k`. Summing, over the whole list, the updates aimed at row `r` gives the sum over the first `E₁` of those aimed at `r`,
    plus the one extra update of row `r`. -/
theorem sum_rows_then_loops {M : Type*} [AddCommMonoid M] {E₁ N Et : Nat} (h : Et = E₁ + N) (rowOf : Fin Et → ℤ)
    (term : Fin Et → M) (r : Fin N)
    (htail : ∀ k : Fin N, rowOf ⟨E₁ + k.val, by have := k.isLt; omega⟩ = (k.val : ℤ)) :
    ∑ e : Fin Et, (if rowOf e = (r.val : ℤ) then term e else 0)
      = ∑ e : Fin E₁, (if rowOf ⟨e.val, by have := e.isLt; omega⟩ = (r.val : ℤ) then term ⟨e.val, by have := e.isLt; omega⟩ else 0)
        + term ⟨E₁ + r.val, by have := r.isLt; omega⟩ := by
  rw [sum_head_tail_single h (fun e => if rowOf e = (r.val : ℤ) then term e else 0) r]
  · rw [if_pos (htail r)]
  · intro k hk
    rw [if_neg]
    rw [htail k]
    intro hkr
    exact hk (Fin.ext (by exact_mod_cast hkr))

end Idealize.ShloMosaic.IndexWords

end
-- ==== Proof.LibBcastAt.lean ====
/-
  `broadcast_in_dim` in the five forms a keepdims-style jnp program prints, read at one element, at any extents:
  a vector stood up as a column, a column spread along rows, a vector laid down as a row, a row spread down the columns,
  and a scalar spread everywhere. In each the element read is the operand's at the same coordinate on the axis that is kept,
  and at `0` on an axis of extent one.
-/
import Idealize.ShloMosaic.Lib.Pipeline.Value
import Idealize.ShloMosaic.Lib.ValueIdx

noncomputable section

namespace Idealize.ShloMosaic.BcastAt

open Idealize.ShloMosaic Idealize.ShloMosaic.ValueIdx

variable {α : Type} {E C N : Nat}

/-- A vector `[E]` as a column `[E, 1]`: entry `(e, 0)` is the vector's `e`. -/
theorem col_apply (h : (⟨1, ![E]⟩ : Shape).BroadcastsInDim ⟨2, ![E, 1]⟩ ![0]) (x : (⟨1, ![E]⟩ : Shape).Idx → α)
    (e : Fin E) (z : Fin 1) : broadcastInDim ⟨2, ![E, 1]⟩ ![0] h x (ix2 e z) = x (ix1 e) :=
  broadcastInDim_apply ![0] h x (ix2 e z) (ix1 e) (fun a => by
    match a with
    | ⟨0, _⟩ =>
      show e.val = if E = 1 then 0 else e.val
      split
      · have := e.isLt; omega
      · rfl)

/-- A column `[E, 1]` spread to `[E, C]`: entry `(e, f)` is the column's `(e, 0)`. -/
theorem spread_apply (h : (⟨2, ![E, 1]⟩ : Shape).BroadcastsInDim ⟨2, ![E, C]⟩ ![0, 1]) (x : (⟨2, ![E, 1]⟩ : Shape).Idx → α)
    (e : Fin E) (f : Fin C) : broadcastInDim ⟨2, ![E, C]⟩ ![0, 1] h x (ix2 e f) = x (ix2 e (0 : Fin 1)) :=
  broadcastInDim_apply ![0, 1] h x (ix2 e f) (ix2 e (0 : Fin 1)) (fun a => by
    match a with
    | ⟨0, _⟩ =>
      show e.val = if E = 1 then 0 else e.val
      split
      · have := e.isLt; omega
      · rfl
    | ⟨1, _⟩ =>
      show (0 : Nat) = if (1 : Nat) = 1 then 0 else f.val
      rfl)

/-- A vector `[C]` as a row `[1, C]`: entry `(0, f)` is the vector's `f`. -/
theorem row_apply (h : (⟨1, ![C]⟩ : Shape).BroadcastsInDim ⟨2, ![1, C]⟩ ![1]) (x : (⟨1, ![C]⟩ : Shape).Idx → α)
    (z : Fin 1) (f : Fin C) : broadcastInDim ⟨2, ![1, C]⟩ ![1] h x (ix2 z f) = x (ix1 f) :=
  broadcastInDim_apply ![1] h x (ix2 z f) (ix1 f) (fun a => by
    match a with
    | ⟨0, _⟩ =>
      show f.val = if C = 1 then 0 else f.val
      split
      · have := f.isLt; omega
      · rfl)

/-- A row `[1, C]` spread to `[N, C]`: entry `(r, f)` is the row's `(0, f)`. -/
theorem rowSpread_apply (h : (⟨2, ![1, C]⟩ : Shape).BroadcastsInDim ⟨2, ![N, C]⟩ ![0, 1]) (x : (⟨2, ![1, C]⟩ : Shape).Idx → α)
    (r : Fin N) (f : Fin C) : broadcastInDim ⟨2, ![N, C]⟩ ![0, 1] h x (ix2 r f) = x (ix2 (0 : Fin 1) f) :=
  broadcastInDim_apply ![0, 1] h x (ix2 r f) (ix2 (0 : Fin 1) f) (fun a => by
    match a with
    | ⟨0, _⟩ =>
      show (0 : Nat) = if (1 : Nat) = 1 then 0 else r.val
      rfl
    | ⟨1, _⟩ =>
      show f.val = if C = 1 then 0 else f.val
      split
      · have := f.isLt; omega
      · rfl)

/-- A scalar spread over any shape: every entry is the scalar. -/
theorem scalar_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

end Idealize.ShloMosaic.BcastAt

end
-- ==== Proof.LibConcatAt.lean ====
/-
  Two vectors laid end to end, read at one entry: an entry before the first vector's end is the first vector's, an entry
  from there on is the second vector's at the position less the first one's length.
-/
import Idealize.ShloMosaic.Lib.Pipeline.Value
import Idealize.ShloMosaic.Lib.ValueIdx

noncomputable section

namespace Idealize.ShloMosaic.ConcatAt

open Idealize.ShloMosaic Idealize.ShloMosaic.ValueIdx

variable {α : Type} {E₁ E₂ Et : Nat}

/-- An entry that falls in the first vector. -/
theorem concat_vec_left (h : Shape.Concatenates [(⟨1, ![E₁]⟩ : Shape), ⟨1, ![E₂]⟩] ⟨1, ![Et]⟩ 0)
    (a : (⟨1, ![E₁]⟩ : Shape).Idx → α) (b : (⟨1, ![E₂]⟩ : Shape).Idx → α) (e : Fin Et) (he : e.val < E₁) :
    concatenate ⟨1, ![Et]⟩ 0 [⟨⟨1, ![E₁]⟩, a⟩, ⟨⟨1, ![E₂]⟩, b⟩] h (ix1 e) = a (ix1 ⟨e.val, he⟩) :=
  concatenate_pair_apply_left 0 a b h (ix1 e) rfl (ix1 ⟨e.val, he⟩) (fun c => by
    match c with
    | ⟨0, _⟩ => rfl)

/-- An entry that falls in the second vector. -/
theorem concat_vec_right (h : Shape.Concatenates [(⟨1, ![E₁]⟩ : Shape), ⟨1, ![E₂]⟩] ⟨1, ![Et]⟩ 0)
    (a : (⟨1, ![E₁]⟩ : Shape).Idx → α) (b : (⟨1, ![E₂]⟩ : Shape).Idx → α) (e : Fin Et) (he : E₁ ≤ e.val)
    (hk : e.val - E₁ < E₂) :
    concatenate ⟨1, ![Et]⟩ 0 [⟨⟨1, ![E₁]⟩, a⟩, ⟨⟨1, ![E₂]⟩, b⟩] h (ix1 e) = b (ix1 ⟨e.val - E₁, hk⟩) :=
  concatenate_pair_apply_right 0 a b h (ix1 e) rfl rfl (ix1 ⟨e.val - E₁, hk⟩)
    (fun c hc => by
      match c with
      | ⟨0, _⟩ => exact absurd rfl hc)
    (by show e.val - E₁ + E₁ = e.val; omega)

end Idealize.ShloMosaic.ConcatAt

end
-- ==== Proof.Layer.lean ====
/-
  One graph-convolution layer, as the kernel's program spells it, read at one entry of its result.

  The data: `E` edges given by two vectors of row numbers (32-bit words) `srcW`, `dstW`; a table `h` of `N` rows of `C`
  entries; a vector `dinv` of `N` weights; a bias `b` of `C` entries. Write `σ e` and `δ e` for the rows that the words
  `srcW e` and `dstW e` name once a negative word has had `N` added and the result is clamped into the table (what a gather
  does). The kernel's program computes, for row `r` and entry `f`,

      ( 0 + Σ_{e : the word dstW e, read signed, is r}  h(σ e, f) · (dinv(σ e) · dinv(δ e)) )  +  h(r, f) · (dinv r · dinv r)  +  b f

  — the messages scattered to their destination rows (a row number outside the table receives nothing), then the row's own
  term, then the bias. This module states the program's term once, for any extents and any dimension-number records of the
  printed kinds, and reads it at `(r, f)`.
-/
import proofs.«154932_j37426345017679_2_alg».proof.Proof.LibScatterRows
import proofs.«154932_j37426345017679_2_alg».proof.Proof.LibGatherAt
import proofs.«154932_j37426345017679_2_alg».proof.Proof.LibIndexWords
import proofs.«154932_j37426345017679_2_alg».proof.Proof.LibBcastAt
import proofs.«154932_j37426345017679_2_alg».proof.Proof.LibConcatAt

noncomputable section

open scoped BigOperators

namespace Cert.Layer

open Idealize.ShloMosaic Idealize.ShloMosaic.ValueIdx
open Idealize.ShloMosaic.IndexWords (wrap)
open Idealize.ShloMosaic.GatherAt (clampRow)

variable {N E C : Nat}

/-- jnp's normalisation of a vector of row numbers against the extent word `nW`, as the programs spell it. -/
def wrapArr (hzE : (⟨0, ![]⟩ : Shape).BroadcastsInDim ⟨1, ![E]⟩ ![]) (nW : BitVec 32) (w : IVec ⟨1, ![E]⟩ 32) : IVec ⟨1, ![E]⟩ 32 :=
  select (cmpi .slt w (broadcastInDim ⟨1, ![E]⟩ ![] hzE (constantI ⟨0, ![]⟩ 32 0#32)))
    (addi w (broadcastInDim ⟨1, ![E]⟩ ![] hzE (constantI ⟨0, ![]⟩ 32 nW))) w

theorem wrapArr_apply (hzE : (⟨0, ![]⟩ : Shape).BroadcastsInDim ⟨1, ![E]⟩ ![]) (nW : BitVec 32) (w : IVec ⟨1, ![E]⟩ 32) (e : Fin E) :
    wrapArr hzE nW w (ix1 e) = wrap nW (w (ix1 e)) := by
  unfold wrapArr wrap
  show Scalar.select (IntOp.cmpi .slt (w (ix1 e)) (broadcastInDim ⟨1, ![E]⟩ ![] hzE (constantI ⟨0, ![]⟩ 32 0#32) (ix1 e)))
      (IntOp.addi (w (ix1 e)) (broadcastInDim ⟨1, ![E]⟩ ![] hzE (constantI ⟨0, ![]⟩ 32 nW) (ix1 e))) (w (ix1 e)) = _
  rw [BcastAt.scalar_apply, BcastAt.scalar_apply]
  rfl

section Records

variable (wfS : ScatterDims.WF ⟨2, ![N, C]⟩ ⟨2, ![E, 1]⟩ ⟨2, ![E, C]⟩ [1] [0] [0] 1)
  (wfR : GatherDims.WF ⟨2, ![N, C]⟩ ⟨2, ![E, 1]⟩ ⟨2, ![E, C]⟩ [1] [0] [] [0] [] 1 ![1, C])
  (wfV : GatherDims.WF ⟨1, ![N]⟩ ⟨2, ![E, 1]⟩ ⟨1, ![E]⟩ [] [0] [] [0] [] 1 ![1])
  (hzE : (⟨0, ![]⟩ : Shape).BroadcastsInDim ⟨1, ![E]⟩ ![])
  (hcol : (⟨1, ![E]⟩ : Shape).BroadcastsInDim ⟨2, ![E, 1]⟩ ![0])
  (hspr : (⟨2, ![E, 1]⟩ : Shape).BroadcastsInDim ⟨2, ![E, C]⟩ ![0, 1])
  (hN : 0 < N) (nW : BitVec 32)

/-- The messages: edge `e`'s source row of the table, scaled by the product of the two end rows' weights — as the programs
    spell it (two gathers of the weights, a gather of the table's rows, the scale stood up as a column and spread). -/
def msg (srcW dstW : IVec ⟨1, ![E]⟩ 32) (h : FVec Ideal ⟨2, ![N, C]⟩ .f32) (dinv : FVec Ideal ⟨1, ![N]⟩ .f32) :
    FVec Ideal ⟨2, ![E, C]⟩ .f32 :=
  mulf (Host.gather (GatherAt.rowsDims wfR) h (broadcastInDim ⟨2, ![E, 1]⟩ ![0] hcol (wrapArr hzE nW srcW)))
    (broadcastInDim ⟨2, ![E, C]⟩ ![0, 1] hspr (broadcastInDim ⟨2, ![E, 1]⟩ ![0] hcol
      (mulf (Host.gather (GatherAt.vecDims wfV) dinv (broadcastInDim ⟨2, ![E, 1]⟩ ![0] hcol (wrapArr hzE nW srcW)))
        (Host.gather (GatherAt.vecDims wfV) dinv (broadcastInDim ⟨2, ![E, 1]⟩ ![0] hcol (wrapArr hzE nW dstW))))))

/-- The row a word names: a negative word has the extent added, the result is clamped into the table. -/
def rowOfWord (z : BitVec 32) : Fin N := clampRow N hN (wrap nW z)

/-- Edge `e`'s message at entry `f`: the source row's entry times the two end rows' weights. -/
theorem msg_apply (srcW dstW : IVec ⟨1, ![E]⟩ 32) (h : FVec Ideal ⟨2, ![N, C]⟩ .f32) (dinv : FVec Ideal ⟨1, ![N]⟩ .f32)
    (e : Fin E) (f : Fin C) :
    msg wfR wfV hzE hcol hspr nW srcW dstW h dinv (ix2 e f)
      = h (ix2 (rowOfWord hN nW (srcW (ix1 e))) f)
          * (dinv (ix1 (rowOfWord hN nW (srcW (ix1 e)))) * dinv (ix1 (rowOfWord hN nW (dstW (ix1 e))))) := by
  unfold msg rowOfWord
  rw [mulf_apply, GatherAt.gather_rows_apply hN, BcastAt.col_apply, wrapArr_apply, BcastAt.spread_apply, BcastAt.col_apply,
    mulf_apply, GatherAt.gather_vec_apply hN, GatherAt.gather_vec_apply hN, BcastAt.col_apply, BcastAt.col_apply,
    wrapArr_apply, wrapArr_apply]

variable (hzNC : (⟨0, ![]⟩ : Shape).BroadcastsInDim ⟨2, ![N, C]⟩ ![])
  (hcolN : (⟨1, ![N]⟩ : Shape).BroadcastsInDim ⟨2, ![N, 1]⟩ ![0])
  (hsprN : (⟨2, ![N, 1]⟩ : Shape).BroadcastsInDim ⟨2, ![N, C]⟩ ![0, 1])
  (hrow : (⟨1, ![C]⟩ : Shape).BroadcastsInDim ⟨2, ![1, C]⟩ ![1])
  (hrs : (⟨2, ![1, C]⟩ : Shape).BroadcastsInDim ⟨2, ![N, C]⟩ ![0, 1])

/-- The layer as the KERNEL's program spells it: the messages scattered by destination into a table of zeros, plus each
    row's own term `h · (dinv · dinv)`, plus the bias row. -/
def layerK (srcW dstW : IVec ⟨1, ![E]⟩ 32) (h : FVec Ideal ⟨2, ![N, C]⟩ .f32) (dinv : FVec Ideal ⟨1, ![N]⟩ .f32)
    (b : FVec Ideal ⟨1, ![C]⟩ .f32) : FVec Ideal ⟨2, ![N, C]⟩ .f32 :=
  addf
    (addf
      (Host.scatterAdd (F := Ideal) (ScatterRows.rowsDims wfS)
        (broadcastInDim ⟨2, ![N, C]⟩ ![] hzNC (constant (F := Ideal) ⟨0, ![]⟩ .f32 0x00000000#32))
        (broadcastInDim ⟨2, ![E, 1]⟩ ![0] hcol dstW)
        (msg wfR wfV hzE hcol hspr nW srcW dstW h dinv))
      (mulf h (broadcastInDim ⟨2, ![N, C]⟩ ![0, 1] hsprN (broadcastInDim ⟨2, ![N, 1]⟩ ![0] hcolN (mulf dinv dinv)))))
    (broadcastInDim ⟨2, ![N, C]⟩ ![0, 1] hrs (broadcastInDim ⟨2, ![1, C]⟩ ![1] hrow b))

/-- The layer as the REFERENCE spells it: the messages of a longer edge list scattered into zeros, plus the bias row. -/
def layerR (srcW dstW : IVec ⟨1, ![E]⟩ 32) (h : FVec Ideal ⟨2, ![N, C]⟩ .f32) (dinv : FVec Ideal ⟨1, ![N]⟩ .f32)
    (b : FVec Ideal ⟨1, ![C]⟩ .f32) : FVec Ideal ⟨2, ![N, C]⟩ .f32 :=
  addf
    (Host.scatterAdd (F := Ideal) (ScatterRows.rowsDims wfS)
      (broadcastInDim ⟨2, ![N, C]⟩ ![] hzNC (constant (F := Ideal) ⟨0, ![]⟩ .f32 0x00000000#32))
      (broadcastInDim ⟨2, ![E, 1]⟩ ![0] hcol dstW)
      (msg wfR wfV hzE hcol hspr nW srcW dstW h dinv))
    (broadcastInDim ⟨2, ![N, C]⟩ ![0, 1] hrs (broadcastInDim ⟨2, ![1, C]⟩ ![1] hrow b))

/-- What the scatter leaves at `(r, f)`: the zero word's value plus the messages whose destination word, read signed, is `r`. -/
theorem scattered_apply (srcW dstW : IVec ⟨1, ![E]⟩ 32) (h : FVec Ideal ⟨2, ![N, C]⟩ .f32) (dinv : FVec Ideal ⟨1, ![N]⟩ .f32)
    (r : Fin N) (f : Fin C) :
    Host.scatterAdd (F := Ideal) (ScatterRows.rowsDims wfS)
        (broadcastInDim ⟨2, ![N, C]⟩ ![] hzNC (constant (F := Ideal) ⟨0, ![]⟩ .f32 0x00000000#32))
        (broadcastInDim ⟨2, ![E, 1]⟩ ![0] hcol dstW)
        (msg wfR wfV hzE hcol hspr nW srcW dstW h dinv) (ix2 r f)
      = Ideal.ofBits .f32 0x00000000#32
        + ∑ e : Fin E, if (dstW (ix1 e)).toInt = (r.val : ℤ) then
            h (ix2 (rowOfWord hN nW (srcW (ix1 e))) f)
              * (dinv (ix1 (rowOfWord hN nW (srcW (ix1 e)))) * dinv (ix1 (rowOfWord hN nW (dstW (ix1 e)))))
          else 0 := by
  rw [ScatterRows.scatterAdd_rows_apply, BcastAt.scalar_apply]
  refine congrArg (_ + ·) (Finset.sum_congr rfl fun e _ => ?_)
  rw [BcastAt.col_apply, msg_apply wfR wfV hzE hcol hspr hN nW]

/-- THE KERNEL'S LAYER AT `(r, f)`. -/
theorem layerK_apply (srcW dstW : IVec ⟨1, ![E]⟩ 32) (h : FVec Ideal ⟨2, ![N, C]⟩ .f32) (dinv : FVec Ideal ⟨1, ![N]⟩ .f32)
    (b : FVec Ideal ⟨1, ![C]⟩ .f32) (r : Fin N) (f : Fin C) :
    layerK wfS wfR wfV hzE hcol hspr nW hzNC hcolN hsprN hrow hrs srcW dstW h dinv b (ix2 r f)
      = ((Ideal.ofBits .f32 0x00000000#32
          + ∑ e : Fin E, if (dstW (ix1 e)).toInt = (r.val : ℤ) then
              h (ix2 (rowOfWord hN nW (srcW (ix1 e))) f)
                * (dinv (ix1 (rowOfWord hN nW (srcW (ix1 e)))) * dinv (ix1 (rowOfWord hN nW (dstW (ix1 e)))))
            else 0)
          + h (ix2 r f) * (dinv (ix1 r) * dinv (ix1 r)))
        + b (ix1 f) := by
  unfold layerK
  rw [addf_apply, addf_apply, scattered_apply wfS wfR wfV hzE hcol hspr hN nW hzNC, mulf_apply, BcastAt.spread_apply,
    BcastAt.col_apply, mulf_apply, BcastAt.rowSpread_apply, BcastAt.row_apply]

/-- THE REFERENCE'S LAYER AT `(r, f)`. -/
theorem layerR_apply (srcW dstW : IVec ⟨1, ![E]⟩ 32) (h : FVec Ideal ⟨2, ![N, C]⟩ .f32) (dinv : FVec Ideal ⟨1, ![N]⟩ .f32)
    (b : FVec Ideal ⟨1, ![C]⟩ .f32) (r : Fin N) (f : Fin C) :
    layerR wfS wfR wfV hzE hcol hspr nW hzNC hrow hrs srcW dstW h dinv b (ix2 r f)
      = (Ideal.ofBits .f32 0x00000000#32
          + ∑ e : Fin E, if (dstW (ix1 e)).toInt = (r.val : ℤ) then
              h (ix2 (rowOfWord hN nW (srcW (ix1 e))) f)
                * (dinv (ix1 (rowOfWord hN nW (srcW (ix1 e)))) * dinv (ix1 (rowOfWord hN nW (dstW (ix1 e)))))
            else 0)
        + b (ix1 f) := by
  unfold layerR
  rw [addf_apply, scattered_apply wfS wfR wfV hzE hcol hspr hN nW hzNC, BcastAt.rowSpread_apply, BcastAt.row_apply]

end Records

/-! ## The reference's longer edge list

The reference appends to the `E₁` edges one edge per row, from the row to itself: its source and destination vectors are the
kernel's followed by `0, 1, …, N - 1`. Scattered by destination, the appended edge of row `r` is the only appended edge that
lands on row `r`, and its message is the row's own term `h(r, f) · (dinv r · dinv r)`. So the reference's layer over the long
list is the kernel's layer over the short one: the same finite sum on the extended reals, grouped differently. -/

section Concat

variable {E₁ Et : Nat}

/-- The row numbers `0, 1, …` as words name themselves: not negative, so nothing is added, and inside the table, so the
    clamp leaves them. -/
theorem rowOfWord_ofNat (hN : 0 < N) (hNs : N ≤ 2 ^ 31) (nW : BitVec 32) (k : Fin N) :
    rowOfWord hN nW (BitVec.ofNat 32 k.val) = k := by
  have hk : k.val < 2 ^ 31 := lt_of_lt_of_le k.isLt hNs
  have ht := IndexWords.toInt_ofNat_small k.val hk
  unfold rowOfWord
  rw [IndexWords.wrap_of_nonneg nW _ (by rw [ht]; exact Int.natCast_nonneg _)]
  unfold GatherAt.clampRow
  refine Fin.ext ?_
  show min (BitVec.ofNat 32 k.val).toInt.toNat (N - 1) = k.val
  rw [ht]
  have := k.isLt
  simp only [Int.toNat_natCast]
  omega

variable (hcat : Shape.Concatenates [(⟨1, ![E₁]⟩ : Shape), ⟨1, ![N]⟩] ⟨1, ![Et]⟩ 0)

/-- A vector of `E₁` row numbers followed by `0, 1, …, N - 1`. -/
def withLoops (w : IVec ⟨1, ![E₁]⟩ 32) : IVec ⟨1, ![Et]⟩ 32 :=
  concatenate ⟨1, ![Et]⟩ 0 [⟨⟨1, ![E₁]⟩, w⟩, ⟨⟨1, ![N]⟩, iotaInDim ⟨1, ![N]⟩ 32 0⟩] hcat

theorem withLoops_head (w : IVec ⟨1, ![E₁]⟩ 32) (hEt : Et = E₁ + N) (e : Fin E₁) :
    withLoops hcat w (ix1 ⟨e.val, by have := e.isLt; omega⟩) = w (ix1 e) := by
  unfold withLoops
  rw [ConcatAt.concat_vec_left hcat w _ ⟨e.val, by have := e.isLt; omega⟩ e.isLt]

theorem withLoops_tail (w : IVec ⟨1, ![E₁]⟩ 32) (hEt : Et = E₁ + N) (k : Fin N) :
    withLoops hcat w (ix1 ⟨E₁ + k.val, by have := k.isLt; omega⟩) = BitVec.ofNat 32 k.val := by
  unfold withLoops
  rw [ConcatAt.concat_vec_right hcat w _ ⟨E₁ + k.val, by have := k.isLt; omega⟩ (Nat.le_add_right _ _)
    (by show E₁ + k.val - E₁ < N; have := k.isLt; omega)]
  show BitVec.ofNat 32 (E₁ + k.val - E₁) = BitVec.ofNat 32 k.val
  rw [Nat.add_sub_cancel_left]

/-- THE TWO SPELLINGS OF A LAYER AGREE. The reference's layer over the edge list with one loop per row appended, at entry
    `(r, f)`, is the kernel's layer over the edge list itself: the appended loop of row `r` contributes exactly the kernel's
    own-row term, and no other appended loop lands on `r`. Any records of the printed kinds on either side; the table,
    the weights and the bias are arbitrary extended-real arrays — nothing is assumed finite. -/
theorem layerR_withLoops (hEt : Et = E₁ + N) (hN : 0 < N) (hNs : N ≤ 2 ^ 31) (nW : BitVec 32)
    (wfS : ScatterDims.WF ⟨2, ![N, C]⟩ ⟨2, ![E₁, 1]⟩ ⟨2, ![E₁, C]⟩ [1] [0] [0] 1)
    (wfR : GatherDims.WF ⟨2, ![N, C]⟩ ⟨2, ![E₁, 1]⟩ ⟨2, ![E₁, C]⟩ [1] [0] [] [0] [] 1 ![1, C])
    (wfV : GatherDims.WF ⟨1, ![N]⟩ ⟨2, ![E₁, 1]⟩ ⟨1, ![E₁]⟩ [] [0] [] [0] [] 1 ![1])
    (hzE : (⟨0, ![]⟩ : Shape).BroadcastsInDim ⟨1, ![E₁]⟩ ![])
    (hcol : (⟨1, ![E₁]⟩ : Shape).BroadcastsInDim ⟨2, ![E₁, 1]⟩ ![0])
    (hspr : (⟨2, ![E₁, 1]⟩ : Shape).BroadcastsInDim ⟨2, ![E₁, C]⟩ ![0, 1])
    (wfS' : ScatterDims.WF ⟨2, ![N, C]⟩ ⟨2, ![Et, 1]⟩ ⟨2, ![Et, C]⟩ [1] [0] [0] 1)
    (wfR' : GatherDims.WF ⟨2, ![N, C]⟩ ⟨2, ![Et, 1]⟩ ⟨2, ![Et, C]⟩ [1] [0] [] [0] [] 1 ![1, C])
    (wfV' : GatherDims.WF ⟨1, ![N]⟩ ⟨2, ![Et, 1]⟩ ⟨1, ![Et]⟩ [] [0] [] [0] [] 1 ![1])
    (hzE' : (⟨0, ![]⟩ : Shape).BroadcastsInDim ⟨1, ![Et]⟩ ![])
    (hcol' : (⟨1, ![Et]⟩ : Shape).BroadcastsInDim ⟨2, ![Et, 1]⟩ ![0])
    (hspr' : (⟨2, ![Et, 1]⟩ : Shape).BroadcastsInDim ⟨2, ![Et, C]⟩ ![0, 1])
    (hzNC : (⟨0, ![]⟩ : Shape).BroadcastsInDim ⟨2, ![N, C]⟩ ![])
    (hcolN : (⟨1, ![N]⟩ : Shape).BroadcastsInDim ⟨2, ![N, 1]⟩ ![0])
    (hsprN : (⟨2, ![N, 1]⟩ : Shape).BroadcastsInDim ⟨2, ![N, C]⟩ ![0, 1])
    (hrow : (⟨1, ![C]⟩ : Shape).BroadcastsInDim ⟨2, ![1, C]⟩ ![1])
    (hrs : (⟨2, ![1, C]⟩ : Shape).BroadcastsInDim ⟨2, ![N, C]⟩ ![0, 1])
    (srcW dstW : IVec ⟨1, ![E₁]⟩ 32) (h : FVec Ideal ⟨2, ![N, C]⟩ .f32) (dinv : FVec Ideal ⟨1, ![N]⟩ .f32)
    (b : FVec Ideal ⟨1, ![C]⟩ .f32) (r : Fin N) (f : Fin C) :
    layerR wfS' wfR' wfV' hzE' hcol' hspr' nW hzNC hrow hrs (withLoops hcat srcW) (withLoops hcat dstW) h dinv b (ix2 r f)
      = layerK wfS wfR wfV hzE hcol hspr nW hzNC hcolN hsprN hrow hrs srcW dstW h dinv b (ix2 r f) := by
  rw [layerR_apply (hN := hN), layerK_apply (hN := hN)]
  refine congrArg (· + b (ix1 f)) ?_
  rw [add_assoc]
  refine congrArg (Ideal.ofBits .f32 0x00000000#32 + ·) ?_
  refine (IndexWords.sum_rows_then_loops hEt (fun e => (withLoops hcat dstW (ix1 e)).toInt) _ r (fun k => ?_)).trans ?_
  · show (withLoops hcat dstW (ix1 ⟨E₁ + k.val, _⟩)).toInt = (k.val : ℤ)
    rw [withLoops_tail hcat dstW hEt k]
    exact IndexWords.toInt_ofNat_small k.val (lt_of_lt_of_le k.isLt hNs)
  · refine congrArg₂ (· + ·) (Finset.sum_congr rfl fun e _ => ?_) ?_
    · show (if (withLoops hcat dstW (ix1 ⟨e.val, _⟩)).toInt = (r.val : ℤ) then _ else _) = _
      rw [withLoops_head hcat dstW hEt e, withLoops_head hcat srcW hEt e]
    · show h (ix2 (rowOfWord hN nW (withLoops hcat srcW (ix1 ⟨E₁ + r.val, _⟩))) f)
          * (dinv (ix1 (rowOfWord hN nW (withLoops hcat srcW (ix1 ⟨E₁ + r.val, _⟩))))
            * dinv (ix1 (rowOfWord hN nW (withLoops hcat dstW (ix1 ⟨E₁ + r.val, _⟩))))) = _
      rw [withLoops_tail hcat srcW hEt r, withLoops_tail hcat dstW hEt r, rowOfWord_ofNat hN hNs nW r]

end Concat

end Cert.Layer

end
-- ==== Proof.Degree.lean ====
/-
  The degree vector, in the two programs' spellings.

  The kernel counts, for each row `r`, the edges whose destination word NORMALISED (a negative word has the extent added)
  is `r`, and adds one for the row's own loop. The reference appends one loop per row to the edge list and counts the
  destination words AS THEY ARE (a negative word lands nowhere). The two counts are the same sum of ones when no
  destination word is negative: then normalising changes nothing, and the appended loop of row `r` is the `+ 1`.
  (With a negative destination word they differ: the kernel counts it for row `N + word`, the reference drops it.)
-/
import proofs.«154932_j37426345017679_2_alg».proof.Proof.Layer

noncomputable section

open scoped BigOperators

namespace Cert.Degree

open Idealize.ShloMosaic Idealize.ShloMosaic.ValueIdx Cert.Layer
open Idealize.ShloMosaic.IndexWords (wrap)

variable {N E₁ Et : Nat}

/-- The kernel's count: ones scattered by the normalised destination words into zeros, plus one. -/
def degK (wfS : ScatterDims.WF ⟨1, ![N]⟩ ⟨2, ![E₁, 1]⟩ ⟨1, ![E₁]⟩ [] [0] [0] 1)
    (hzN : (⟨0, ![]⟩ : Shape).BroadcastsInDim ⟨1, ![N]⟩ ![]) (hzE : (⟨0, ![]⟩ : Shape).BroadcastsInDim ⟨1, ![E₁]⟩ ![])
    (hcol : (⟨1, ![E₁]⟩ : Shape).BroadcastsInDim ⟨2, ![E₁, 1]⟩ ![0]) (nW : BitVec 32) (dstW : IVec ⟨1, ![E₁]⟩ 32) :
    FVec Ideal ⟨1, ![N]⟩ .f32 :=
  addf
    (Host.scatterAdd (F := Ideal) (ScatterRows.vecDims wfS)
      (broadcastInDim ⟨1, ![N]⟩ ![] hzN (constant (F := Ideal) ⟨0, ![]⟩ .f32 0x00000000#32))
      (broadcastInDim ⟨2, ![E₁, 1]⟩ ![0] hcol (wrapArr hzE nW dstW))
      (broadcastInDim ⟨1, ![E₁]⟩ ![] hzE (constant (F := Ideal) ⟨0, ![]⟩ .f32 0x3F800000#32)))
    (broadcastInDim ⟨1, ![N]⟩ ![] hzN (constant (F := Ideal) ⟨0, ![]⟩ .f32 0x3F800000#32))

/-- The reference's count: ones scattered by the destination words of the list with loops, as they are, into zeros. -/
def degR (wfS' : ScatterDims.WF ⟨1, ![N]⟩ ⟨2, ![Et, 1]⟩ ⟨1, ![Et]⟩ [] [0] [0] 1)
    (hzN : (⟨0, ![]⟩ : Shape).BroadcastsInDim ⟨1, ![N]⟩ ![]) (hzE' : (⟨0, ![]⟩ : Shape).BroadcastsInDim ⟨1, ![Et]⟩ ![])
    (hcol' : (⟨1, ![Et]⟩ : Shape).BroadcastsInDim ⟨2, ![Et, 1]⟩ ![0]) (dW : IVec ⟨1, ![Et]⟩ 32) :
    FVec Ideal ⟨1, ![N]⟩ .f32 :=
  Host.scatterAdd (F := Ideal) (ScatterRows.vecDims wfS')
    (broadcastInDim ⟨1, ![N]⟩ ![] hzN (constant (F := Ideal) ⟨0, ![]⟩ .f32 0x00000000#32))
    (broadcastInDim ⟨2, ![Et, 1]⟩ ![0] hcol' dW)
    (broadcastInDim ⟨1, ![Et]⟩ ![] hzE' (constant (F := Ideal) ⟨0, ![]⟩ .f32 0x3F800000#32))

theorem degK_apply (wfS) (hzN) (hzE) (hcol) (nW : BitVec 32) (dstW : IVec ⟨1, ![E₁]⟩ 32) (r : Fin N) :
    degK (N := N) wfS hzN hzE hcol nW dstW (ix1 r)
      = (Ideal.ofBits .f32 0x00000000#32
          + ∑ e : Fin E₁, if (wrap nW (dstW (ix1 e))).toInt = (r.val : ℤ) then Ideal.ofBits .f32 0x3F800000#32 else 0)
        + Ideal.ofBits .f32 0x3F800000#32 := by
  unfold degK
  rw [addf_apply, ScatterRows.scatterAdd_vec_apply, BcastAt.scalar_apply, BcastAt.scalar_apply]
  refine congrArg (· + _) (congrArg (_ + ·) (Finset.sum_congr rfl fun e _ => ?_))
  rw [BcastAt.col_apply, wrapArr_apply, BcastAt.scalar_apply]
  rfl

theorem degR_apply (wfS') (hzN) (hzE') (hcol') (dW : IVec ⟨1, ![Et]⟩ 32) (r : Fin N) :
    degR (N := N) wfS' hzN hzE' hcol' dW (ix1 r)
      = Ideal.ofBits .f32 0x00000000#32
          + ∑ e : Fin Et, if (dW (ix1 e)).toInt = (r.val : ℤ) then Ideal.ofBits .f32 0x3F800000#32 else 0 := by
  unfold degR
  rw [ScatterRows.scatterAdd_vec_apply, BcastAt.scalar_apply]
  refine congrArg (_ + ·) (Finset.sum_congr rfl fun e _ => ?_)
  rw [BcastAt.col_apply, BcastAt.scalar_apply]
  rfl

/-- THE TWO COUNTS AGREE when no destination word is negative. -/
theorem degR_withLoops (hEt : Et = E₁ + N) (hNs : N ≤ 2 ^ 31)
    (hcat : Shape.Concatenates [(⟨1, ![E₁]⟩ : Shape), ⟨1, ![N]⟩] ⟨1, ![Et]⟩ 0)
    (wfS) (wfS') (hzN) (hzE) (hzE') (hcol) (hcol') (nW : BitVec 32) (dstW : IVec ⟨1, ![E₁]⟩ 32)
    (hpos : ∀ e : Fin E₁, 0 ≤ (dstW (ix1 e)).toInt) :
    degR (N := N) wfS' hzN hzE' hcol' (withLoops hcat dstW) = degK (N := N) wfS hzN hzE hcol nW dstW := by
  funext i
  obtain ⟨r, rfl⟩ : ∃ r : Fin N, i = ix1 r := ⟨i 0, eq_ix1 i⟩
  rw [degR_apply, degK_apply, add_assoc]
  refine congrArg (Ideal.ofBits .f32 0x00000000#32 + ·) ?_
  refine (IndexWords.sum_rows_then_loops hEt (fun e => (withLoops hcat dstW (ix1 e)).toInt) _ r (fun k => ?_)).trans ?_
  · show (withLoops hcat dstW (ix1 ⟨E₁ + k.val, _⟩)).toInt = (k.val : ℤ)
    rw [withLoops_tail hcat dstW hEt k]
    exact IndexWords.toInt_ofNat_small k.val (lt_of_lt_of_le k.isLt hNs)
  · refine congrArg (· + _) (Finset.sum_congr rfl fun e _ => ?_)
    show (if (withLoops hcat dstW (ix1 ⟨e.val, _⟩)).toInt = (r.val : ℤ) then _ else _) = _
    rw [withLoops_head hcat dstW hEt e, IndexWords.wrap_of_nonneg nW _ (hpos e)]

end Cert.Degree

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.Product0.lean ====
/-
  The first matrix product, as the kernel's first region leaves it.

  The region walks the rows of `x` in 20 blocks of 10000; at each block the body rounds the block of `x` and the whole
  weight matrix to bf16 (the identity on the extended reals), multiplies them on the matrix unit into zeros, and stores the
  10000 × 16 block of the result. Every row of the result lies in exactly one block, so when the region ends the result
  array is ONE function of the two arrays the region found: entry (r, q) is the sum over k < 128 of x(r, k) · W(k, q).
-/
import proofs.«154932_j37426345017679_2_alg».proof.Proof.Gen.KernelIdeal.Frame
import proofs.«154932_j37426345017679_2_alg».proof.Proof.LibPlainProduct
import Idealize.ShloMosaic.Lib.Pipeline.Value
import Idealize.ShloMosaic.PureOps.Ideal

set_option maxRecDepth 16384

noncomputable section

open scoped BigOperators

namespace Cert.KernelIdeal.Product0

open Cert.KernelIdeal Cert.KernelIdeal.Gen
open Idealize.ShloMosaic Idealize.ShloMosaic.TcCoe Idealize.ShloMosaic.ValueIdx Idealize.SL.Sem
open Idealize.ShloMosaic.Pipeline (Dat)

/-- The plain product of a 200000 × 128 array and a 128 × 16 array, entry by entry. -/
def prod (x : S200000x128.Idx → EReal) (w : S128x16.Idx → EReal) : S200000x16.Idx → EReal :=
  fun i => ∑ k : Fin 128, x (ix2 (⟨(i 0).val, idx2_lt0 i⟩ : Fin 200000) k) * w (ix2 k (⟨(i 1).val, idx2_lt1 i⟩ : Fin 16))

theorem hz : (![0, 0] : Fin 2 → Nat) = fun _ => 0 := funext fun a => by fin_cases a <;> rfl

/-- The body's stored value at an entry of the block: the product of the two loaded blocks there. -/
theorem pay_apply (x0 : Vec Ideal S10000x128 .f32) (x1 : Vec Ideal S128x16 .f32) (p : Fin 10000) (q : Fin 16) :
    k0_pay1 (F := Ideal) x0 x1 (ix2 p q) = ∑ k : Fin 128, x0 (ix2 p k) * x1 (ix2 k q) := by
  unfold k0_pay1
  exact Cert.Lib.PlainProduct.matmul_zero_apply (d := dot_S10000x128_S128x16_S10000x16_1_0_0_1_n_n)
    ⟨rfl, rfl, rfl, rfl, rfl, rfl⟩ rfl rfl none _ _ p q

/-- The printed index maps, decided once over the 20 grid points: the block of `x` moves with the result's block along the
    rows, every other block index is 0, and the result's row-block index is the point's own number, below 20. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) < 20 :=
  (by decide +kernel : ∀ t : Fin grid0.N, _)

/-- Every row block is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

variable (V : (c : Dev nD) → (b : Ref sig .tc) → Buf (Elt Ideal) ((c : Thread nD τ).loc b))

/-- WHAT POINT `t` WRITES BACK is block `t` of the product of the two arrays the region found. -/
theorem flushed_eq (c : Dev nD) (t : Fin cfg0.N) :
    (dat0 V c).flushed 2 t
      = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  obtain ⟨e0, e1, e2, e3, e4, e5⟩ := idx_facts t
  funext j
  obtain ⟨p, q, rfl⟩ : ∃ (p : Fin 10000) (q : Fin 16), j = ix2 p q := ⟨j 0, j 1, eq_ix2 j⟩
  show k0_pay1 (F := Ideal) (iblk0 V c 0 t) (iblk0 V c 1 t) (ix2 p q)
    = prod (V c main_arg0) (V c main_arg2) (((cfg0.win 2).blk t).view.emb (ix2 p q))
  rw [pay_apply]
  unfold prod
  refine Finset.sum_congr rfl fun k _ => ?_
  have h0 : iblk0 V c 0 t (ix2 p k)
      = V c main_arg0 (ix2 (⟨((((cfg0.win 2).blk t).view.emb (ix2 p q)) 0).val, idx2_lt0 _⟩ : Fin 200000) k) := by
    show V c main_arg0 (((cfg0.win 0).blk t).view.emb (ix2 p k)) = _
    refine congrArg (V c main_arg0) (funext fun a => Fin.ext ?_)
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 128 + 1 * k.val = k.val
      omega
  have h1 : iblk0 V c 1 t (ix2 k q)
      = V c main_arg2 (ix2 k (⟨((((cfg0.win 2).blk t).view.emb (ix2 p q)) 1).val, idx2_lt1 _⟩ : Fin 16)) := by
    show V c main_arg2 (((cfg0.win 1).blk t).view.emb (ix2 k q)) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 16 + 1 * q.val = win0_2.index t (1 : Fin 2) * 16 + 1 * q.val
      omega
  rw [h0, h1]

/-- An entry of the result array is in point `t`'s block exactly when each coordinate is in the block's range. -/
theorem mem_blk (t : Fin cfg0.N) (i : S200000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v19).slice (win0_2.rect t)).set ↔ _
  rw [View.set_slice_whole, Rect.mem_set_unit]
  exact Iff.rfl

/-- Every entry of the result array is in some point's block: the point whose number is the row divided by 10000. -/
theorem cover (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 16 ≤ (i 1).val ∧ (i 1).val < win0_2.index t (1 : Fin 2) * 16 + 16
    omega

/-- THE RESULT ARRAY WHEN THE REGION ENDS: the plain product of the two arrays it found. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Product0

end
-- ==== Proof.Product1.lean ====
/-
  The second matrix product, as the kernel's second region leaves it.

  The region walks the rows of the hidden table (200000 rows of 16 entries, the first layer's output after the rectifier)
  in 20 blocks of 10000; at each block the body rounds the block and the whole 16 × 2 weight matrix to bf16 (the identity
  on the extended reals), multiplies them on the matrix unit into zeros, and stores the 10000 × 2 block of the result.
  Every row lies in exactly one block, so when the region ends the result array is ONE function of the two arrays the
  region found: entry (r, q) is the sum over k < 16 of h(r, k) · W(k, q).
-/
import proofs.«154932_j37426345017679_2_alg».proof.Proof.Gen.KernelIdeal.Frame
import proofs.«154932_j37426345017679_2_alg».proof.Proof.LibPlainProduct
import Idealize.ShloMosaic.Lib.Pipeline.Value
import Idealize.ShloMosaic.PureOps.Ideal

set_option maxRecDepth 16384

noncomputable section

open scoped BigOperators

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat)

/-- The plain product of a 200000 × 16 array and a 16 × 2 array, entry by entry. -/
def prod (x : S200000x16.Idx → EReal) (w : S16x2.Idx → EReal) : S200000x2.Idx → EReal :=
  fun i => ∑ k : Fin 16, x (ix2 (⟨(i 0).val, idx2_lt0 i⟩ : Fin 200000) k) * w (ix2 k (⟨(i 1).val, idx2_lt1 i⟩ : Fin 2))

theorem hz : (![0, 0] : Fin 2 → Nat) = fun _ => 0 := funext fun a => by fin_cases a <;> rfl

/-- The body's stored value at an entry of the block: the product of the two loaded blocks there. -/
theorem pay_apply (x0 : Vec Ideal S10000x16 .f32) (x1 : Vec Ideal S16x2 .f32) (p : Fin 10000) (q : Fin 2) :
    k1_pay1 (F := Ideal) x0 x1 (ix2 p q) = ∑ k : Fin 16, x0 (ix2 p k) * x1 (ix2 k q) := by
  unfold k1_pay1
  simp only [shapeCast_self]
  exact Cert.Lib.PlainProduct.matmul_zero_apply (d := dot_S10000x16_S16x2_S10000x2_1_0_0_1_n_n)
    ⟨rfl, rfl, rfl, rfl, rfl, rfl⟩ rfl rfl none _ _ p q

/-- The printed index maps, decided once over the 20 grid points: the block of the hidden table moves with the result's block along the
    rows, every other block index is 0, and the result's row-block index is the point's own number, below 20. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) < 20 :=
  (by decide +kernel : ∀ t : Fin grid1.N, _)

/-- Every row block is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

variable (V : (c : Dev nD) → (b : Ref sig .tc) → Buf (Elt Ideal) ((c : Thread nD τ).loc b))

/-- WHAT POINT `t` WRITES BACK is block `t` of the product of the two arrays the region found. -/
theorem flushed_eq (c : Dev nD) (t : Fin cfg1.N) :
    (dat1 V c).flushed 2 t
      = ((cfg1.win 2).blk t).view.read (Elt Ideal) (prod (V c main_v56) (V c main_arg4)) := by
  show (cfg1.win 2).cut (grid1.coords t) ((dat1 V c).after 2 t) = _
  rw [after1_2]
  unfold out1_2
  rw [View.canon_unit_zero hz]
  simp only [View.ld_unit_zero (S := S10000x16) hz, View.ld_unit_zero (S := S16x2) hz]
  obtain ⟨e0, e1, e2, e3, e4, e5⟩ := idx_facts t
  funext j
  obtain ⟨p, q, rfl⟩ : ∃ (p : Fin 10000) (q : Fin 2), j = ix2 p q := ⟨j 0, j 1, eq_ix2 j⟩
  show k1_pay1 (F := Ideal) (iblk1 V c 0 t) (iblk1 V c 1 t) (ix2 p q)
    = prod (V c main_v56) (V c main_arg4) (((cfg1.win 2).blk t).view.emb (ix2 p q))
  rw [pay_apply]
  unfold prod
  refine Finset.sum_congr rfl fun k _ => ?_
  have h0 : iblk1 V c 0 t (ix2 p k)
      = V c main_v56 (ix2 (⟨((((cfg1.win 2).blk t).view.emb (ix2 p q)) 0).val, idx2_lt0 _⟩ : Fin 200000) k) := by
    show V c main_v56 (((cfg1.win 0).blk t).view.emb (ix2 p k)) = _
    refine congrArg (V c main_v56) (funext fun a => Fin.ext ?_)
    match a with
    | ⟨0, _⟩ =>
      show win1_0.index t (0 : Fin 2) * 10000 + 1 * p.val = win1_2.index t (0 : Fin 2) * 10000 + 1 * p.val
      omega
    | ⟨1, _⟩ =>
      show win1_0.index t (1 : Fin 2) * 16 + 1 * k.val = k.val
      omega
  have h1 : iblk1 V c 1 t (ix2 k q)
      = V c main_arg4 (ix2 k (⟨((((cfg1.win 2).blk t).view.emb (ix2 p q)) 1).val, idx2_lt1 _⟩ : Fin 2)) := by
    show V c main_arg4 (((cfg1.win 1).blk t).view.emb (ix2 k q)) = _
    refine congrArg (V c main_arg4) (funext fun a => Fin.ext ?_)
    match a with
    | ⟨0, _⟩ =>
      show win1_1.index t (0 : Fin 2) * 16 + 1 * k.val = k.val
      omega
    | ⟨1, _⟩ =>
      show win1_1.index t (1 : Fin 2) * 2 + 1 * q.val = win1_2.index t (1 : Fin 2) * 2 + 1 * q.val
      omega
  rw [h0, h1]

/-- An entry of the result array is in point `t`'s block exactly when each coordinate is in the block's range. -/
theorem mem_blk (t : Fin cfg1.N) (i : S200000x2.Idx) :
    i ∈ ((cfg1.win 2).blk t).view.set ↔ ∀ a : Fin 2, win1_2.index t a * S10000x2.size a ≤ (i a).val
      ∧ (i a).val < win1_2.index t a * S10000x2.size a + S10000x2.size a := by
  show i ∈ ((View.whole main_v57).slice (win1_2.rect t)).set ↔ _
  rw [View.set_slice_whole, Rect.mem_set_unit]
  exact Iff.rfl

/-- Every entry of the result array is in some point's block: the point whose number is the row divided by 10000. -/
theorem cover (i : S200000x2.Idx) : ∃ t : Fin cfg1.N, (cfg1.win 2).flush t = true ∧ i ∈ ((cfg1.win 2).blk t).view.set := by
  have hi0 : (i 0).val < 200000 := (i 0).isLt
  have hi1 : (i 1).val < 2 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 2 ≤ (i 1).val ∧ (i 1).val < win1_2.index t (1 : Fin 2) * 2 + 2
    omega

/-- THE RESULT ARRAY WHEN THE REGION ENDS: the plain product of the two arrays it found. -/
theorem final (c : Dev nD) : (dat1 V c).arrAt 2 cfg1.N = prod (V c main_v56) (V c main_arg4) :=
  (dat1 V c).arrAt_eq_of_cover 2 (prod (V c main_v56) (V c main_arg4)) (fun t _ => flushed_eq V c t) cover

end Cert.KernelIdeal.Product1

end
-- ==== Proof.KernelValue.lean ====
/-
  The idealized kernel's result as one function of its six argument arrays.

  @main is five stretches of host operations around two regions. Read back in order: the first stretch cuts the two
  rows of edge numbers out of `edge_index`, counts the degrees (ones scattered by the normalised destination words, plus
  one) and prepares `deg > 0` and `rsqrt deg`; the second chooses between them (`dinv`); the first region multiplies
  `x` by `W1`; the third stretch is the first graph-convolution layer; the fourth the rectifier; the second region
  multiplies by `W2`; the closing stretch is the second layer. Each stretch is read over ARBITRARY buffer contents
  and then placed at the contents it is entered from; buffers a stretch or a region does not write pass through it.
-/
import proofs.«154932_j37426345017679_2_alg».proof.Proof.KernelRun
import proofs.«154932_j37426345017679_2_alg».proof.Proof.Layer
import proofs.«154932_j37426345017679_2_alg».proof.Proof.Degree
import proofs.«154932_j37426345017679_2_alg».proof.Proof.Product0
import proofs.«154932_j37426345017679_2_alg».proof.Proof.Product1
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.Tactic Idealize.SL.Sem Idealize.ShloMosaic.StableHlo

/-! ## The pieces, over the printed records -/

/-- Row 0 of `edge_index`: the source words. -/
def row0 (ei : IVec S2x6400000 32) : IVec S6400000 32 :=
  shapeCast S6400000 (extractStridedSlice S1x6400000 ![0, 0] ei slices_S2x6400000_S1x6400000_0_0) shapeCasts_S1x6400000_S6400000
/-- Row 1 of `edge_index`: the destination words. -/
def row1 (ei : IVec S2x6400000 32) : IVec S6400000 32 :=
  shapeCast S6400000 (extractStridedSlice S1x6400000 ![1, 0] ei slices_S2x6400000_S1x6400000_1_0) shapeCasts_S1x6400000_S6400000

/-- The degree vector as the kernel counts it. -/
def deg (ei : IVec S2x6400000 32) : FVec Ideal S200000 .f32 :=
  Cert.Degree.degK (N := 200000) (E₁ := 6400000) scatter_S200000_S6400000x1_S6400000_n_0_0_1.wf
    bcast_S_S200000 bcast_S_S6400000 bcast_S6400000_S6400000x1_0 200000#32 (row1 ei)

/-- `where(deg > 0, rsqrt deg, 0)`. -/
def dinvOf (d : FVec Ideal S200000 .f32) : FVec Ideal S200000 .f32 :=
  select (cmpf .ogt d (broadcastInDim S200000 ![] bcast_S_S200000 (constant (F := Ideal) S_ .f32 0x00000000#32)))
    (Host.rsqrt d) (broadcastInDim S200000 ![] bcast_S_S200000 (constant (F := Ideal) S_ .f32 0x00000000#32))

/-- The first layer over the printed records (sixteen entries per row). -/
abbrev layer1 (srcW dstW : IVec S6400000 32) (h : FVec Ideal S200000x16 .f32) (dinv : FVec Ideal S200000 .f32)
    (b : FVec Ideal S16 .f32) : FVec Ideal S200000x16 .f32 :=
  Cert.Layer.layerK (N := 200000) (E := 6400000) (C := 16)
    scatter_S200000x16_S6400000x1_S6400000x16_1_0_0_1.wf gather_S200000x16_S6400000x1_S6400000x16_1_0_n_n_0_1_116.wf
    gather_S200000_S6400000x1_S6400000_n_0_n_n_0_1_1.wf
    bcast_S_S6400000 bcast_S6400000_S6400000x1_0 bcast_S6400000x1_S6400000x16_0_1 200000#32
    bcast_S_S200000x16 bcast_S200000_S200000x1_0 bcast_S200000x1_S200000x16_0_1 bcast_S16_S1x16_1 bcast_S1x16_S200000x16_0_1
    srcW dstW h dinv b

/-- The second layer over the printed records (two entries per row). -/
abbrev layer2 (srcW dstW : IVec S6400000 32) (h : FVec Ideal S200000x2 .f32) (dinv : FVec Ideal S200000 .f32)
    (b : FVec Ideal S2 .f32) : FVec Ideal S200000x2 .f32 :=
  Cert.Layer.layerK (N := 200000) (E := 6400000) (C := 2)
    scatter_S200000x2_S6400000x1_S6400000x2_1_0_0_1.wf gather_S200000x2_S6400000x1_S6400000x2_1_0_n_n_0_1_12.wf
    gather_S200000_S6400000x1_S6400000_n_0_n_n_0_1_1.wf
    bcast_S_S6400000 bcast_S6400000_S6400000x1_0 bcast_S6400000x1_S6400000x2_0_1 200000#32
    bcast_S_S200000x2 bcast_S200000_S200000x1_0 bcast_S200000x1_S200000x2_0_1 bcast_S2_S1x2_1 bcast_S1x2_S200000x2_0_1
    srcW dstW h dinv b

/-- The rectifier: the maximum with a table of zeros. -/
def relu (h : FVec Ideal S200000x16 .f32) : FVec Ideal S200000x16 .f32 :=
  maximumf h (broadcastInDim S200000x16 ![] bcast_S_S200000x16 (constant (F := Ideal) S_ .f32 0x00000000#32))

/-! ## The five stretches, each over arbitrary contents -/

set_option maxHeartbeats 4000000 in
theorem stretch0_v1 (W : Valuation τ sig (Elt Ideal)) :
    StableHlo.after hostOps0 W (Proc.devRef .tc main_v1) = row0 (W (Proc.devRef .tc main_arg1)) := by
  after_results_simp <;> rfl

set_option maxHeartbeats 4000000 in
theorem stretch0_v3 (W : Valuation τ sig (Elt Ideal)) :
    StableHlo.after hostOps0 W (Proc.devRef .tc main_v3) = row1 (W (Proc.devRef .tc main_arg1)) := by
  after_results_simp <;> rfl

set_option maxHeartbeats 4000000 in
theorem stretch0_v16 (W : Valuation τ sig (Elt Ideal)) :
    StableHlo.after hostOps0 W (Proc.devRef .tc main_v16)
      = cmpf .ogt (deg (W (Proc.devRef .tc main_arg1)))
          (broadcastInDim S200000 ![] bcast_S_S200000 (constant (F := Ideal) S_ .f32 0x00000000#32)) := by
  after_results_simp <;> rfl

set_option maxHeartbeats 4000000 in
theorem stretch0_v17 (W : Valuation τ sig (Elt Ideal)) :
    StableHlo.after hostOps0 W (Proc.devRef .tc main_v17) = Host.rsqrt (deg (W (Proc.devRef .tc main_arg1))) := by
  after_results_simp <;> rfl

set_option maxHeartbeats 4000000 in
theorem stretch0_cst4 (W : Valuation τ sig (Elt Ideal)) :
    StableHlo.after hostOps0 W (Proc.devRef .tc main_cst_4) = constant (F := Ideal) S_ .f32 0x00000000#32 := by
  after_results_simp <;> rfl

set_option maxHeartbeats 4000000 in
theorem stretch0_1 (W : Valuation τ sig (Elt Ideal)) :
    StableHlo.after hostOps0_1 W (Proc.devRef .tc main_v18)
      = select (W (Proc.devRef .tc main_v16)) (W (Proc.devRef .tc main_v17))
          (broadcastInDim S200000 ![] bcast_S_S200000 (W (Proc.devRef .tc main_cst_4))) := by
  after_results_simp <;> rfl

set_option maxHeartbeats 4000000 in
theorem stretch1 (W : Valuation τ sig (Elt Ideal)) :
    StableHlo.after hostOps1 W (Proc.devRef .tc main_v55)
      = layer1 (W (Proc.devRef .tc main_v1)) (W (Proc.devRef .tc main_v3)) (W (Proc.devRef .tc main_v19))
          (W (Proc.devRef .tc main_v18)) (W (Proc.devRef .tc main_arg3)) := by
  after_results_simp <;> rfl

set_option maxHeartbeats 4000000 in
theorem stretch1_1 (W : Valuation τ sig (Elt Ideal)) :
    StableHlo.after hostOps1_1 W (Proc.devRef .tc main_v56) = relu (W (Proc.devRef .tc main_v55)) := by
  after_results_simp <;> rfl

set_option maxHeartbeats 4000000 in
theorem stretch2 (W : Valuation τ sig (Elt Ideal)) :
    StableHlo.after hostOps2 W (Proc.devRef .tc main_v93)
      = layer2 (W (Proc.devRef .tc main_v1)) (W (Proc.devRef .tc main_v3)) (W (Proc.devRef .tc main_v57))
          (W (Proc.devRef .tc main_v18)) (W (Proc.devRef .tc main_arg5)) := by
  after_results_simp <;> rfl

/-! ## The stretches at the contents they are entered from, and the buffers that pass through -/

variable (m : (ℓ : Loc nD τ sig) → Buf (Elt Ideal) ℓ) (ρ : Dev nD → PrngReg)

theorem W0_arg (c : Dev nD) (b : Ref sig .tc) : W0 m ρ c (Proc.devRef .tc b) = m ((c : Thread nD τ).loc b) := rfl

theorem W1_arg0 (c : Dev nD) : W1 m ρ c (Proc.devRef .tc main_arg0) = W0 m ρ c (Proc.devRef .tc main_arg0) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg2 (c : Dev nD) : W1 m ρ c (Proc.devRef .tc main_arg2) = W0 m ρ c (Proc.devRef .tc main_arg2) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg3 (c : Dev nD) : W1 m ρ c (Proc.devRef .tc main_arg3) = W0 m ρ c (Proc.devRef .tc main_arg3) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg4 (c : Dev nD) : W1 m ρ c (Proc.devRef .tc main_arg4) = W0 m ρ c (Proc.devRef .tc main_arg4) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg5 (c : Dev nD) : W1 m ρ c (Proc.devRef .tc main_arg5) = W0 m ρ c (Proc.devRef .tc main_arg5) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_v1 (c : Dev nD) : W1 m ρ c (Proc.devRef .tc main_v1) = row0 (W0 m ρ c (Proc.devRef .tc main_arg1)) := stretch0_v1 (W0 m ρ c)
theorem W1_v3 (c : Dev nD) : W1 m ρ c (Proc.devRef .tc main_v3) = row1 (W0 m ρ c (Proc.devRef .tc main_arg1)) := stretch0_v3 (W0 m ρ c)
theorem W1_v16 (c : Dev nD) : W1 m ρ c (Proc.devRef .tc main_v16)
    = cmpf .ogt (deg (W0 m ρ c (Proc.devRef .tc main_arg1)))
        (broadcastInDim S200000 ![] bcast_S_S200000 (constant (F := Ideal) S_ .f32 0x00000000#32)) := stretch0_v16 (W0 m ρ c)
theorem W1_v17 (c : Dev nD) : W1 m ρ c (Proc.devRef .tc main_v17) = Host.rsqrt (deg (W0 m ρ c (Proc.devRef .tc main_arg1))) :=
  stretch0_v17 (W0 m ρ c)
theorem W1_cst4 (c : Dev nD) : W1 m ρ c (Proc.devRef .tc main_cst_4) = constant (F := Ideal) S_ .f32 0x00000000#32 :=
  stretch0_cst4 (W0 m ρ c)

theorem W2_v1 (c : Dev nD) : W2 m ρ c (Proc.devRef .tc main_v1) = W1 m ρ c (Proc.devRef .tc main_v1) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_v3 (c : Dev nD) : W2 m ρ c (Proc.devRef .tc main_v3) = W1 m ρ c (Proc.devRef .tc main_v3) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_arg0 (c : Dev nD) : W2 m ρ c (Proc.devRef .tc main_arg0) = W1 m ρ c (Proc.devRef .tc main_arg0) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_arg2 (c : Dev nD) : W2 m ρ c (Proc.devRef .tc main_arg2) = W1 m ρ c (Proc.devRef .tc main_arg2) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_arg3 (c : Dev nD) : W2 m ρ c (Proc.devRef .tc main_arg3) = W1 m ρ c (Proc.devRef .tc main_arg3) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_arg4 (c : Dev nD) : W2 m ρ c (Proc.devRef .tc main_arg4) = W1 m ρ c (Proc.devRef .tc main_arg4) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_arg5 (c : Dev nD) : W2 m ρ c (Proc.devRef .tc main_arg5) = W1 m ρ c (Proc.devRef .tc main_arg5) :=
  StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W2_v18 (c : Dev nD) : W2 m ρ c (Proc.devRef .tc main_v18) = dinvOf (deg (m ((c : Thread nD τ).loc main_arg1))) := by
  refine (stretch0_1 (W1 m ρ c)).trans ?_
  rw [W1_v16, W1_v17, W1_cst4, W0_arg]
  rfl

theorem W3_v1 (c : Dev nD) : W3 m ρ c (Proc.devRef .tc main_v1) = W2 m ρ c (Proc.devRef .tc main_v1) :=
  W3_of_ne m ρ c main_v1 (by decide)
theorem W3_v3 (c : Dev nD) : W3 m ρ c (Proc.devRef .tc main_v3) = W2 m ρ c (Proc.devRef .tc main_v3) :=
  W3_of_ne m ρ c main_v3 (by decide)
theorem W3_v18 (c : Dev nD) : W3 m ρ c (Proc.devRef .tc main_v18) = W2 m ρ c (Proc.devRef .tc main_v18) :=
  W3_of_ne m ρ c main_v18 (by decide)
theorem W3_arg3 (c : Dev nD) : W3 m ρ c (Proc.devRef .tc main_arg3) = W2 m ρ c (Proc.devRef .tc main_arg3) :=
  W3_of_ne m ρ c main_arg3 (by decide)
theorem W3_arg4 (c : Dev nD) : W3 m ρ c (Proc.devRef .tc main_arg4) = W2 m ρ c (Proc.devRef .tc main_arg4) :=
  W3_of_ne m ρ c main_arg4 (by decide)
theorem W3_arg5 (c : Dev nD) : W3 m ρ c (Proc.devRef .tc main_arg5) = W2 m ρ c (Proc.devRef .tc main_arg5) :=
  W3_of_ne m ρ c main_arg5 (by decide)

theorem W3_v19 (c : Dev nD) :
    W3 m ρ c (Proc.devRef .tc main_v19) = Product0.prod (V2 m ρ c main_arg0) (V2 m ρ c main_arg2) :=
  (W3_arr m ρ c 2).trans (Product0.final (V2 m ρ) c)
theorem V2_eq (c : Dev nD) (b : Ref sig .tc) : V2 m ρ c b = W2 m ρ c (Proc.devRef .tc b) := rfl

theorem W4_v1 (c : Dev nD) : W4 m ρ c (Proc.devRef .tc main_v1) = W3 m ρ c (Proc.devRef .tc main_v1) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W4_v3 (c : Dev nD) : W4 m ρ c (Proc.devRef .tc main_v3) = W3 m ρ c (Proc.devRef .tc main_v3) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W4_v18 (c : Dev nD) : W4 m ρ c (Proc.devRef .tc main_v18) = W3 m ρ c (Proc.devRef .tc main_v18) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W4_arg4 (c : Dev nD) : W4 m ρ c (Proc.devRef .tc main_arg4) = W3 m ρ c (Proc.devRef .tc main_arg4) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W4_arg5 (c : Dev nD) : W4 m ρ c (Proc.devRef .tc main_arg5) = W3 m ρ c (Proc.devRef .tc main_arg5) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W4_v55 (c : Dev nD) : W4 m ρ c (Proc.devRef .tc main_v55)
    = layer1 (W3 m ρ c (Proc.devRef .tc main_v1)) (W3 m ρ c (Proc.devRef .tc main_v3)) (W3 m ρ c (Proc.devRef .tc main_v19))
        (W3 m ρ c (Proc.devRef .tc main_v18)) (W3 m ρ c (Proc.devRef .tc main_arg3)) := stretch1 (W3 m ρ c)

theorem W5_v1 (c : Dev nD) : W5 m ρ c (Proc.devRef .tc main_v1) = W4 m ρ c (Proc.devRef .tc main_v1) :=
  StableHlo.after_of_forall_not_mem _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_v3 (c : Dev nD) : W5 m ρ c (Proc.devRef .tc main_v3) = W4 m ρ c (Proc.devRef .tc main_v3) :=
  StableHlo.after_of_forall_not_mem _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_v18 (c : Dev nD) : W5 m ρ c (Proc.devRef .tc main_v18) = W4 m ρ c (Proc.devRef .tc main_v18) :=
  StableHlo.after_of_forall_not_mem _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_arg4 (c : Dev nD) : W5 m ρ c (Proc.devRef .tc main_arg4) = W4 m ρ c (Proc.devRef .tc main_arg4) :=
  StableHlo.after_of_forall_not_mem _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_arg5 (c : Dev nD) : W5 m ρ c (Proc.devRef .tc main_arg5) = W4 m ρ c (Proc.devRef .tc main_arg5) :=
  StableHlo.after_of_forall_not_mem _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W5_v56 (c : Dev nD) : W5 m ρ c (Proc.devRef .tc main_v56) = relu (W4 m ρ c (Proc.devRef .tc main_v55)) :=
  stretch1_1 (W4 m ρ c)

theorem W6_v1 (c : Dev nD) : W6 m ρ c (Proc.devRef .tc main_v1) = W5 m ρ c (Proc.devRef .tc main_v1) :=
  W6_of_ne m ρ c main_v1 (by decide)
theorem W6_v3 (c : Dev nD) : W6 m ρ c (Proc.devRef .tc main_v3) = W5 m ρ c (Proc.devRef .tc main_v3) :=
  W6_of_ne m ρ c main_v3 (by decide)
theorem W6_v18 (c : Dev nD) : W6 m ρ c (Proc.devRef .tc main_v18) = W5 m ρ c (Proc.devRef .tc main_v18) :=
  W6_of_ne m ρ c main_v18 (by decide)
theorem W6_arg5 (c : Dev nD) : W6 m ρ c (Proc.devRef .tc main_arg5) = W5 m ρ c (Proc.devRef .tc main_arg5) :=
  W6_of_ne m ρ c main_arg5 (by decide)

theorem W6_v57 (c : Dev nD) :
    W6 m ρ c (Proc.devRef .tc main_v57) = Product1.prod (V5 m ρ c main_v56) (V5 m ρ c main_arg4) :=
  (W6_arr m ρ c 2).trans (Product1.final (V5 m ρ) c)
theorem V5_eq (c : Dev nD) (b : Ref sig .tc) : V5 m ρ c b = W5 m ρ c (Proc.devRef .tc b) := rfl

theorem result_layer2 (c : Dev nD) : RunValue.result (F := Ideal) m ρ c
    = layer2 (W6 m ρ c (Proc.devRef .tc main_v1)) (W6 m ρ c (Proc.devRef .tc main_v3)) (W6 m ρ c (Proc.devRef .tc main_v57))
        (W6 m ρ c (Proc.devRef .tc main_v18)) (W6 m ρ c (Proc.devRef .tc main_arg5)) := stretch2 (W6 m ρ c)

/-! ## The result as one function of the arguments -/

/-- The kernel's result as a function of the six arguments: the second layer of the second product of the rectified first
    layer of the first product, both layers over the same edge words and the same weights `dinv`. -/
def value (x : FVec Ideal S200000x128 .f32) (ei : IVec S2x6400000 32) (w1 : FVec Ideal S128x16 .f32) (b1 : FVec Ideal S16 .f32)
    (w2 : FVec Ideal S16x2 .f32) (b2 : FVec Ideal S2 .f32) : FVec Ideal S200000x2 .f32 :=
  layer2 (row0 ei) (row1 ei)
    (Product1.prod (relu (layer1 (row0 ei) (row1 ei) (Product0.prod x w1) (dinvOf (deg ei)) b1)) w2)
    (dinvOf (deg ei)) b2

theorem result_value (c : Dev nD) :
    RunValue.result (F := Ideal) m ρ c
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [result_layer2, W6_v1, W6_v3, W6_v18, W6_arg5, W6_v57, V5_eq, V5_eq,
    W5_v1, W5_v3, W5_v18, W5_arg5, W5_arg4, W5_v56,
    W4_v1, W4_v3, W4_v18, W4_arg5, W4_arg4, W4_v55,
    W3_v1, W3_v3, W3_v18, W3_arg5, W3_arg4, W3_arg3, W3_v19, V2_eq, V2_eq,
    W2_v1, W2_v3, W2_v18, W2_arg0, W2_arg2, W2_arg3, W2_arg4, W2_arg5,
    W1_v1, W1_v3, W1_arg0, W1_arg2, W1_arg3, W1_arg4, W1_arg5]
  rfl

end Cert.KernelIdeal.Chain

end
-- ==== Proof.RefValue.lean ====
/-
  The idealized reference's result as one function of its six argument arrays, in the same vocabulary as the kernel's.

  The reference appends one loop per row to the edge list (the row numbers `0 … 199999` after the 6400000 source words, and
  again after the destination words), counts degrees by scattering ones by the destination words of the long list, takes
  `dinv = where(deg > 0, rsqrt deg, 0)`, and runs the two layers over the long list with no separate own-row term. Its run's
  composed term is that structured expression, operation for operation.
-/
import proofs.«154932_j37426345017679_2_alg».proof.Proof.RunPatched
import proofs.«154932_j37426345017679_2_alg».proof.Proof.Layer
import proofs.«154932_j37426345017679_2_alg».proof.Proof.Degree
import Idealize.ShloMosaic.PureOps.Ideal

set_option maxRecDepth 16384

noncomputable section

namespace Cert.ReferenceIdeal.Spec

open Cert.ReferenceIdeal Cert.ReferenceIdeal.Gen
open Idealize.ShloMosaic Idealize.ShloMosaic.TcCoe Idealize.SL.Sem

/-- Row 0 of `edge_index`: the source words. -/
def row0 (ei : IVec S2x6400000 32) : IVec S6400000 32 :=
  shapeCast S6400000 (extractStridedSlice S1x6400000 ![0, 0] ei slices_S2x6400000_S1x6400000_0_0) shapeCasts_S1x6400000_S6400000
/-- Row 1 of `edge_index`: the destination words. -/
def row1 (ei : IVec S2x6400000 32) : IVec S6400000 32 :=
  shapeCast S6400000 (extractStridedSlice S1x6400000 ![1, 0] ei slices_S2x6400000_S1x6400000_1_0) shapeCasts_S1x6400000_S6400000

/-- A vector of edge words followed by one loop per row. -/
abbrev looped (w : IVec S6400000 32) : IVec S6600000 32 :=
  Cert.Layer.withLoops (N := 200000) (E₁ := 6400000) (Et := 6600000) concatenates_S6400000_S200000_S6600000_d0 w

/-- The degree vector as the reference counts it. -/
def deg (ei : IVec S2x6400000 32) : FVec Ideal S200000 .f32 :=
  Cert.Degree.degR (N := 200000) (Et := 6600000) scatter_S200000_S6600000x1_S6600000_n_0_0_1.wf
    bcast_S_S200000 bcast_S_S6600000 bcast_S6600000_S6600000x1_0 (looped (row1 ei))

/-- `where(deg > 0, rsqrt deg, 0)`. -/
def dinvOf (d : FVec Ideal S200000 .f32) : FVec Ideal S200000 .f32 :=
  select (cmpf .ogt d (broadcastInDim S200000 ![] bcast_S_S200000 (constant (F := Ideal) S_ .f32 0x00000000#32)))
    (Host.rsqrt d) (broadcastInDim S200000 ![] bcast_S_S200000 (constant (F := Ideal) S_ .f32 0x00000000#32))

abbrev layer1 (srcW dstW : IVec S6600000 32) (h : FVec Ideal S200000x16 .f32) (dinv : FVec Ideal S200000 .f32)
    (b : FVec Ideal S16 .f32) : FVec Ideal S200000x16 .f32 :=
  Cert.Layer.layerR (N := 200000) (E := 6600000) (C := 16)
    scatter_S200000x16_S6600000x1_S6600000x16_1_0_0_1.wf gather_S200000x16_S6600000x1_S6600000x16_1_0_n_n_0_1_116.wf
    gather_S200000_S6600000x1_S6600000_n_0_n_n_0_1_1.wf
    bcast_S_S6600000 bcast_S6600000_S6600000x1_0 bcast_S6600000x1_S6600000x16_0_1 200000#32
    bcast_S_S200000x16 bcast_S16_S1x16_1 bcast_S1x16_S200000x16_0_1
    srcW dstW h dinv b

abbrev layer2 (srcW dstW : IVec S6600000 32) (h : FVec Ideal S200000x2 .f32) (dinv : FVec Ideal S200000 .f32)
    (b : FVec Ideal S2 .f32) : FVec Ideal S200000x2 .f32 :=
  Cert.Layer.layerR (N := 200000) (E := 6600000) (C := 2)
    scatter_S200000x2_S6600000x1_S6600000x2_1_0_0_1.wf gather_S200000x2_S6600000x1_S6600000x2_1_0_n_n_0_1_12.wf
    gather_S200000_S6600000x1_S6600000_n_0_n_n_0_1_1.wf
    bcast_S_S6600000 bcast_S6600000_S6600000x1_0 bcast_S6600000x1_S6600000x2_0_1 200000#32
    bcast_S_S200000x2 bcast_S2_S1x2_1 bcast_S1x2_S200000x2_0_1
    srcW dstW h dinv b

/-- The rectifier: the maximum with a table of zeros. -/
def relu (h : FVec Ideal S200000x16 .f32) : FVec Ideal S200000x16 .f32 :=
  maximumf h (broadcastInDim S200000x16 ![] bcast_S_S200000x16 (constant (F := Ideal) S_ .f32 0x00000000#32))

/-- The reference's result as a function of the six arguments. -/
def value (x : FVec Ideal S200000x128 .f32) (ei : IVec S2x6400000 32) (w1 : FVec Ideal S128x16 .f32) (b1 : FVec Ideal S16 .f32)
    (w2 : FVec Ideal S16x2 .f32) (b2 : FVec Ideal S2 .f32) : FVec Ideal S200000x2 .f32 :=
  layer2 (looped (row0 ei)) (looped (row1 ei))
    (Host.dotGeneral (F := Ideal) dot_S200000x16_S16x2_S200000x2_1_0_0_1_n_n none
      (relu (layer1 (looped (row0 ei)) (looped (row1 ei))
        (Host.dotGeneral (F := Ideal) dot_S200000x128_S128x16_S200000x16_1_0_0_1_n_n none x w1) (dinvOf (deg ei)) b1)) w2)
    (dinvOf (deg ei)) b2

set_option maxHeartbeats 1000000 in
/-- The run's composed term is that expression. -/
theorem res_eq (m : (ℓ : Loc nD τ sig) → Buf (Elt Ideal) ℓ) (c : Dev nD) :
    Cert.ReferenceIdeal.ValueP.res_main_v90 (F := Ideal) m c
      = value (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v90
  rfl

end Cert.ReferenceIdeal.Spec

end
-- ==== Proof.Bridge.lean ====
/-
  The two programs compute one function.

  Both results are the second layer of the second product of the rectified first layer of the first product. They differ
  in two places only. The reference carries each row's own term as an extra edge from the row to itself, the kernel as a
  separate summand: for any table, weights and bias the two spellings of a layer are the same finite sum on the extended
  reals. And the kernel normalises the destination words before counting degrees where the reference does not: the counts
  agree once no destination word is negative. The two matrix products are, on either side, the plain sum over the inner
  index. Nothing here asks any float input to be finite.
-/
import proofs.«154932_j37426345017679_2_alg».proof.Proof.KernelValue
import proofs.«154932_j37426345017679_2_alg».proof.Proof.RefValue

set_option maxRecDepth 16384

noncomputable section

namespace Cert.Bridge

open Idealize.ShloMosaic Idealize.ShloMosaic.ValueIdx
open Cert.KernelIdeal (S200000x128 S2x6400000 S128x16 S16 S16x2 S2 S200000x16 S200000x2 S200000 S6400000)

theorem row0_eq (ei : IVec S2x6400000 32) : Cert.ReferenceIdeal.Spec.row0 ei = Cert.KernelIdeal.Chain.row0 ei := rfl
theorem row1_eq (ei : IVec S2x6400000 32) : Cert.ReferenceIdeal.Spec.row1 ei = Cert.KernelIdeal.Chain.row1 ei := rfl

/-- Every destination word is an entry of `edge_index`. -/
theorem row1_nonneg (ei : IVec S2x6400000 32) (hpos : ∀ i : S2x6400000.Idx, 0 ≤ (ei i).toInt) (e : Fin 6400000) :
    0 ≤ (Cert.KernelIdeal.Chain.row1 ei (ix1 e)).toInt := by
  unfold Cert.KernelIdeal.Chain.row1 shapeCast extractStridedSlice
  exact hpos _

/-- The two degree vectors. -/
theorem deg_eq (ei : IVec S2x6400000 32) (hpos : ∀ i : S2x6400000.Idx, 0 ≤ (ei i).toInt) :
    Cert.ReferenceIdeal.Spec.deg ei = Cert.KernelIdeal.Chain.deg ei := by
  unfold Cert.ReferenceIdeal.Spec.deg Cert.KernelIdeal.Chain.deg
  rw [row1_eq]
  exact Cert.Degree.degR_withLoops (N := 200000) (E₁ := 6400000) (Et := 6600000) rfl (by norm_num) _ _ _ _ _ _ _ _ _ _
    (row1_nonneg ei hpos)

theorem dinv_eq (ei : IVec S2x6400000 32) (hpos : ∀ i : S2x6400000.Idx, 0 ≤ (ei i).toInt) :
    Cert.ReferenceIdeal.Spec.dinvOf (Cert.ReferenceIdeal.Spec.deg ei)
      = Cert.KernelIdeal.Chain.dinvOf (Cert.KernelIdeal.Chain.deg ei) := by
  rw [deg_eq ei hpos]
  rfl

/-- The first matrix product: the host's general contraction and the region's result are the plain sum. -/
theorem prod0_eq (x : FVec Ideal S200000x128 .f32) (w1 : FVec Ideal S128x16 .f32) :
    Host.dotGeneral (F := Ideal) Cert.ReferenceIdeal.dot_S200000x128_S128x16_S200000x16_1_0_0_1_n_n none x w1
      = Cert.KernelIdeal.Product0.prod x w1 := by
  funext i
  obtain ⟨r, f, rfl⟩ : ∃ (r : Fin 200000) (f : Fin 16), i = ix2 r f := ⟨i 0, i 1, eq_ix2 i⟩
  exact Cert.Lib.PlainProduct.dotGeneral_apply (d := Cert.ReferenceIdeal.dot_S200000x128_S128x16_S200000x16_1_0_0_1_n_n)
    ⟨rfl, rfl, rfl, rfl, rfl, rfl⟩ rfl rfl none _ x w1 r f

/-- The second matrix product likewise. -/
theorem prod1_eq (h : FVec Ideal S200000x16 .f32) (w2 : FVec Ideal S16x2 .f32) :
    Host.dotGeneral (F := Ideal) Cert.ReferenceIdeal.dot_S200000x16_S16x2_S200000x2_1_0_0_1_n_n none h w2
      = Cert.KernelIdeal.Product1.prod h w2 := by
  funext i
  obtain ⟨r, f, rfl⟩ : ∃ (r : Fin 200000) (f : Fin 2), i = ix2 r f := ⟨i 0, i 1, eq_ix2 i⟩
  exact Cert.Lib.PlainProduct.dotGeneral_apply (d := Cert.ReferenceIdeal.dot_S200000x16_S16x2_S200000x2_1_0_0_1_n_n)
    ⟨rfl, rfl, rfl, rfl, rfl, rfl⟩ rfl rfl none _ h w2 r f

/-- The first layer: the reference's spelling over the edge list with loops is the kernel's over the edge list. -/
theorem layer1_eq (ei : IVec S2x6400000 32) (h : FVec Ideal S200000x16 .f32) (dinv : FVec Ideal S200000 .f32)
    (b1 : FVec Ideal S16 .f32) :
    Cert.ReferenceIdeal.Spec.layer1 (Cert.ReferenceIdeal.Spec.looped (Cert.ReferenceIdeal.Spec.row0 ei))
        (Cert.ReferenceIdeal.Spec.looped (Cert.ReferenceIdeal.Spec.row1 ei)) h dinv b1
      = Cert.KernelIdeal.Chain.layer1 (Cert.KernelIdeal.Chain.row0 ei) (Cert.KernelIdeal.Chain.row1 ei) h dinv b1 := by
  funext i
  obtain ⟨r, f, rfl⟩ : ∃ (r : Fin 200000) (f : Fin 16), i = ix2 r f := ⟨i 0, i 1, eq_ix2 i⟩
  rw [row0_eq, row1_eq]
  exact Cert.Layer.layerR_withLoops (N := 200000) (C := 16) (E₁ := 6400000) (Et := 6600000) _ rfl (by norm_num) (by norm_num)
    200000#32 _ _ _ _ _ _ _ _ _ _ _ _ _ _ _ _ _ _ _ h dinv b1 r f

/-- The second layer likewise. -/
theorem layer2_eq (ei : IVec S2x6400000 32) (h : FVec Ideal S200000x2 .f32) (dinv : FVec Ideal S200000 .f32)
    (b2 : FVec Ideal S2 .f32) :
    Cert.ReferenceIdeal.Spec.layer2 (Cert.ReferenceIdeal.Spec.looped (Cert.ReferenceIdeal.Spec.row0 ei))
        (Cert.ReferenceIdeal.Spec.looped (Cert.ReferenceIdeal.Spec.row1 ei)) h dinv b2
      = Cert.KernelIdeal.Chain.layer2 (Cert.KernelIdeal.Chain.row0 ei) (Cert.KernelIdeal.Chain.row1 ei) h dinv b2 := by
  funext i
  obtain ⟨r, f, rfl⟩ : ∃ (r : Fin 200000) (f : Fin 2), i = ix2 r f := ⟨i 0, i 1, eq_ix2 i⟩
  rw [row0_eq, row1_eq]
  exact Cert.Layer.layerR_withLoops (N := 200000) (C := 2) (E₁ := 6400000) (Et := 6600000) _ rfl (by norm_num) (by norm_num)
    200000#32 _ _ _ _ _ _ _ _ _ _ _ _ _ _ _ _ _ _ _ h dinv b2 r f

/-- THE TWO RESULTS ARE ONE FUNCTION of the six arguments, when no entry of `edge_index` is negative. -/
theorem value_eq (x : FVec Ideal S200000x128 .f32) (ei : IVec S2x6400000 32) (w1 : FVec Ideal S128x16 .f32)
    (b1 : FVec Ideal S16 .f32) (w2 : FVec Ideal S16x2 .f32) (b2 : FVec Ideal S2 .f32)
    (hpos : ∀ i : S2x6400000.Idx, 0 ≤ (ei i).toInt) :
    Cert.ReferenceIdeal.Spec.value x ei w1 b1 w2 b2 = Cert.KernelIdeal.Chain.value x ei w1 b1 w2 b2 := by
  unfold Cert.ReferenceIdeal.Spec.value Cert.KernelIdeal.Chain.value
  rw [dinv_eq ei hpos, prod0_eq, layer1_eq, prod1_eq, layer2_eq]
  rfl

end Cert.Bridge

end
-- ==== Proof.PreDomain.lean ====
/-
  What the precondition says about `edge_index`: every entry, read signed, is not negative.

  The precondition is a conjunction of `all(...)` tests that came out true. Its last conjunct is
  `all((edge_index >= 0) & (edge_index < 200000))`; being true, it is true at every entry, and at an entry its first half
  says that the 32-bit word read signed is at least 0. (The second half, that the word is below 200000, is not used: the two
  spellings of a layer are shown to agree for arbitrary words, and the two degree counts as soon as no destination word is
  negative.)
-/
import proofs.«154932_j37426345017679_2_alg».proof.Pre_finite_inputs
import proofs.«154932_j37426345017679_2_alg».proof.Proof.Gen.Pre_finite_inputs
import proofs.«154932_j37426345017679_2_alg».proof.Proof.LibIndexWords
import Idealize.ShloMosaic.Lib.ReduceAll
import Idealize.ShloMosaic.PureOps.Ideal

set_option maxRecDepth 16384

noncomputable section

namespace Cert.Pre_finite_inputs.Domain

open Cert.Pre_finite_inputs
open Idealize.ShloMosaic Idealize.ShloMosaic.ValueIdx

instance : Subsingleton S_.Idx := ⟨fun a b => funext fun d => d.elim0⟩

/-- Under the precondition every entry of `edge_index`, read signed, is not negative. -/
theorem entry_nonneg [Facts] (a0 : FVec Ideal S200000x128 .f32) (a1 : IVec S2x6400000 32) (a2 : FVec Ideal S128x16 .f32)
    (a3 : FVec Ideal S16 .f32) (a4 : FVec Ideal S16x2 .f32) (a5 : FVec Ideal S2 .f32)
    (h : fn (F := Ideal) a0 a1 a2 a3 a4 a5 = fun _ => 1#1) (i : S2x6400000.Idx) : 0 ≤ (a1 i).toInt := by
  have h0 : fn (F := Ideal) a0 a1 a2 a3 a4 a5 ix0 = 1#1 := congrFun h ix0
  dsimp only [fn, fn_part1] at h0
  have h29 := (IntOp.andi_eq_one.1 h0).2
  have h28 := Host.reduce_andi_all _ _ _ _ ix0 h29 i
  have hge := (IntOp.andi_eq_one.1 h28).1
  exact IndexWords.nonneg_of_sge (a1 i) hge

end Cert.Pre_finite_inputs.Domain

end
-- ==== Proof.lean ====
/-
  A two-layer graph convolution, out = conv(relu(conv(x, W1, b1)), W2, b2) with
  conv(h, W, b) = D^{-1/2} (A + I) D^{-1/2} (h W) + b over 200000 nodes and 6400000 edges, in two spellings.

  The kernel multiplies by the weight matrices in two pipelined regions (blocks of 10000 rows, the matrix unit into zeros) and
  does the rest on the host: degrees as ones scattered by the destination words plus one, `dinv = where(deg > 0, rsqrt deg, 0)`,
  the messages `h[src] · (dinv[src] · dinv[dst])` gathered and scattered by destination, and each row's own term
  `h · (dinv · dinv)` added separately. The reference instead appends one edge from every row to itself to the edge list and
  runs the same gathers and scatters over the longer list.

  On the extended reals the two agree. A layer's two spellings are one finite sum for any table, weights and bias: the
  appended edge of row r is the only appended edge landing on row r and its message is the row's own term. The two
  matrix products are the plain sum over the inner index. The degree counts differ in one respect: the kernel adds the
  extent to a negative destination word before counting, the reference counts the word as it is (and a negative word
  lands nowhere); they agree when no destination word is negative, which the precondition states of `edge_index`.
  No float input needs to be finite for any of this. The idealization rewrote nothing, so `preserves` is trivial; the two
  kernel frames are the generated certificates and the reference's frame is its run with the result forgotten.
-/
import proofs.«154932_j37426345017679_2_alg».proof.Defs
import proofs.«154932_j37426345017679_2_alg».proof.Proof.Gen.Kernel
import proofs.«154932_j37426345017679_2_alg».proof.Proof.Gen.Kernel.Skeleton
import proofs.«154932_j37426345017679_2_alg».proof.Proof.Gen.Kernel.Launch
import proofs.«154932_j37426345017679_2_alg».proof.Proof.Gen.Kernel.Points
import proofs.«154932_j37426345017679_2_alg».proof.Proof.Gen.Kernel.Frame
import proofs.«154932_j37426345017679_2_alg».proof.Proof.Gen.KernelIdeal
import proofs.«154932_j37426345017679_2_alg».proof.Proof.Gen.KernelIdeal.Skeleton
import proofs.«154932_j37426345017679_2_alg».proof.Proof.Gen.KernelIdeal.Launch
import proofs.«154932_j37426345017679_2_alg».proof.Proof.Gen.KernelIdeal.Points
import proofs.«154932_j37426345017679_2_alg».proof.Proof.Gen.KernelIdeal.Frame
import proofs.«154932_j37426345017679_2_alg».proof.Proof.Gen.ReferenceIdeal
import proofs.«154932_j37426345017679_2_alg».proof.Proof.RunPatched
import proofs.«154932_j37426345017679_2_alg».proof.Proof.Bridge
import proofs.«154932_j37426345017679_2_alg».proof.Proof.PreDomain
import proofs.«154932_j37426345017679_2_alg».proof.Proof.Gen.Pre_finite_inputs
import Idealize.ShloMosaic.Adequacy
import Idealize.ShloMosaic.Init

noncomputable section

namespace Cert.Proof

open Idealize.ShloMosaic Idealize.SL.Sem Cert.Kernel

/-- The word-level program's frame: generated whole (two regions of class A among host stretches). -/
theorem frame_kernel : Cert.frame_Kernel (hKernel := Cert.Kernel.Gen.facts) (hPre_finite_inputs := Cert.Pre_finite_inputs.Gen.facts) :=
  fun m ρ _ => Cert.Kernel.Gen.frame m ρ

/-- The idealized program's frame: the same generated certificate read at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run read back, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The two idealized programs, run from memories that agree on the six arguments, both end, and with the same result
    array: the kernel's run ends with its result at the kernel's function of the arguments, the reference's run at the
    reference's, and under the precondition (no entry of `edge_index` is negative) the two functions are one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Chain.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_value m g c), (h c).2⟩)
      (Cert.KernelIdeal.RunValue.run (F := Ideal) m g)
  · refine (θ_run Cert.ReferenceIdeal.defs _ _).mono (fun r h c => ⟨(h c).1.trans ?_, (h c).2⟩)
      (Cert.ReferenceIdeal.ValueP.run (F := Ideal) m' g')
    rw [Cert.ReferenceIdeal.Spec.res_eq, (hagree c).1, (hagree c).2.1, (hagree c).2.2.1, (hagree c).2.2.2.1,
      (hagree c).2.2.2.2.1, (hagree c).2.2.2.2.2]
    exact Cert.Bridge.value_eq _ _ _ _ _ _
      (fun i => @Cert.Pre_finite_inputs.Domain.entry_nonneg Cert.Pre_finite_inputs.Gen.facts _ _ _ _ _ _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
